-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400x2048 : Shape := ⟨2, ![400, 2048]⟩
abbrev S50257x2 : Shape := ⟨2, ![50257, 2]⟩
abbrev S2 : Shape := ⟨1, ![2]⟩
abbrev S_ : Shape := ⟨0, ![]⟩

class Facts : Prop where
  bcast_S_S50257x2 : S_.BroadcastsInDim S50257x2 (![] : Fin 0 → Fin S50257x2.rank)
  reducesTo_S50257x2_S_d0_1 : S50257x2.ReducesTo [0, 1] S_
  h_S_ : 0 < S_.numel
  bcast_S_S2 : S_.BroadcastsInDim S2 (![] : Fin 0 → Fin S2.rank)
  reducesTo_S2_S_d0 : S2.ReducesTo [0] S_
  bcast_S_S400x2048 : S_.BroadcastsInDim S400x2048 (![] : Fin 0 → Fin S400x2048.rank)
  reducesTo_S400x2048_S_d0_1 : S400x2048.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S400x2048 32) (main_arg1 : FVec F S50257x2 .f32) (main_arg2 : FVec F S2 .f32) : IVec S_ 1 :=
  let main_v0 : FVec F S50257x2 .f32 := Host.absf main_arg1
  let main_cst : FVec F S_ .f32 := constant S_ .f32 0x7F800000#32
  let main_v1 : FVec F S50257x2 .f32 := broadcastInDim S50257x2 ![] bcast_S_S50257x2 main_cst
  let main_v2 : IVec S50257x2 1 := cmpf .olt main_v0 main_v1
  let main_c : IVec S_ 1 := constantI S_ 1 1#1
  let main_v3 : IVec S_ 1 := (fun x v => Host.reduce IntOp.andi x v reducesTo_S50257x2_S_d0_1 h_S_) main_v2 main_c
  let main_v4 : FVec F S2 .f32 := Host.absf main_arg2
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  let main_c_2 : IVec S_ 32 := constantI S_ 32 0#32
  let main_v9 : IVec S400x2048 32 := broadcastInDim S400x2048 ![] bcast_S_S400x2048 main_c_2
  let main_v10 : IVec S400x2048 1 := cmpi .sge main_arg0 main_v9
  let main_c_3 : IVec S_ 1 := constantI S_ 1 1#1
  let main_v11 : IVec S_ 1 := (fun x v => Host.reduce IntOp.andi x v reducesTo_S400x2048_S_d0_1 h_S_) main_v10 main_c_3
  let main_v12 : IVec S_ 1 := andi main_v8 main_v11
  let main_c_4 : IVec S_ 32 := constantI S_ 32 50257#32
  let main_v13 : IVec S400x2048 32 := broadcastInDim S400x2048 ![] bcast_S_S400x2048 main_c_4
  let main_v14 : IVec S400x2048 1 := cmpi .slt main_arg0 main_v13
  let main_c_5 : IVec S_ 1 := constantI S_ 1 1#1
  let main_v15 : IVec S_ 1 := (fun x v => Host.reduce IntOp.andi x v reducesTo_S400x2048_S_d0_1 h_S_) main_v14 main_c_5
  fn_part1 (F := F) main_v12 main_v15
-- ==== Kernel.lean ====
abbrev S400x2048 : Shape := ⟨2, ![400, 2048]⟩
abbrev S50257x2 : Shape := ⟨2, ![50257, 2]⟩
abbrev S2 : Shape := ⟨1, ![2]⟩
abbrev S_ : Shape := ⟨0, ![]⟩
abbrev S1x2 : Shape := ⟨2, ![1, 2]⟩
abbrev S2x2 : Shape := ⟨2, ![2, 2]⟩
abbrev S51200x2 : Shape := ⟨2, ![51200, 2]⟩
abbrev S51200x1 : Shape := ⟨2, ![51200, 1]⟩
abbrev S51200x3 : Shape := ⟨2, ![51200, 3]⟩
abbrev S2048 : Shape := ⟨1, ![2048]⟩
abbrev S1x2048 : Shape := ⟨2, ![1, 2048]⟩
abbrev S51200x2048 : Shape := ⟨2, ![51200, 2048]⟩
abbrev S400x2048x1 : Shape := ⟨3, ![400, 2048, 1]⟩
abbrev S400x2048x2 : Shape := ⟨3, ![400, 2048, 2]⟩
abbrev S2048x2 : Shape := ⟨2, ![2048, 2]⟩
abbrev S2048x1024 : Shape := ⟨2, ![2048, 1024]⟩
abbrev S2048x3 : Shape := ⟨2, ![2048, 3]⟩
abbrev S1024x2 : Shape := ⟨2, ![1024, 2]⟩
abbrev S1024x3 : Shape := ⟨2, ![1024, 3]⟩
abbrev S1024x1 : Shape := ⟨2, ![1024, 1]⟩

abbrev nBuf : Space → Nat
  | .hbm => 44
  | .vmem => 8
  | .smem => 0
  | _ => 0

abbrev bufTy : (tb : Table) → Fin (tcTables nBuf tb) → BufTy
  | .hbm, ⟨0, _⟩ => ⟨S400x2048, .i32⟩
  | .hbm, ⟨1, _⟩ => ⟨S50257x2, .f32⟩
  | .hbm, ⟨2, _⟩ => ⟨S2, .f32⟩
  | .hbm, ⟨3, _⟩ => ⟨S_, .f32⟩
  | .hbm, ⟨4, _⟩ => ⟨S2, .f32⟩
  | .hbm, ⟨5, _⟩ => ⟨S2, .f32⟩
  | .hbm, ⟨6, _⟩ => ⟨S2, .f32⟩
  | .hbm, ⟨7, _⟩ => ⟨S1x2, .f32⟩
  | .hbm, ⟨8, _⟩ => ⟨S1x2, .f32⟩
  | .hbm, ⟨9, _⟩ => ⟨S2x2, .f32⟩
  | .hbm, ⟨10, _⟩ => ⟨S_, .f32⟩
  | .hbm, ⟨11, _⟩ => ⟨S_, .f32⟩
  | .hbm, ⟨12, _⟩ => ⟨S51200x2, .f32⟩
  | .hbm, ⟨13, _⟩ => ⟨S51200x2, .f32⟩
  | .hbm, ⟨14, _⟩ => ⟨S_, .f32⟩
  | .hbm, ⟨15, _⟩ => ⟨S51200x1, .f32⟩
  | .hbm, ⟨16, _⟩ => ⟨S51200x3, .f32⟩
  | .hbm, ⟨17, _⟩ => ⟨S51200x3, .bf16⟩
  | .hbm, ⟨18, _⟩ => ⟨S2048, .i32⟩
  | .hbm, ⟨19, _⟩ => ⟨S1x2048, .i32⟩
  | .hbm, ⟨20, _⟩ => ⟨S400x2048, .i32⟩
  | .hbm, ⟨21, _⟩ => ⟨S_, .bf16⟩
  | .hbm, ⟨22, _⟩ => ⟨S51200x2048, .bf16⟩
  | .hbm, ⟨23, _⟩ => ⟨S_, .i32⟩
  | .hbm, ⟨24, _⟩ => ⟨S400x2048, .i32⟩
  | .hbm, ⟨25, _⟩ => ⟨S400x2048, .i1⟩
  | .hbm, ⟨26, _⟩ => ⟨S_, .i32⟩
  | .hbm, ⟨27, _⟩ => ⟨S400x2048, .i32⟩
  | .hbm, ⟨28, _⟩ => ⟨S400x2048, .i32⟩
  | .hbm, ⟨29, _⟩ => ⟨S400x2048, .i32⟩
  | .hbm, ⟨30, _⟩ => ⟨S_, .i32⟩
  | .hbm, ⟨31, _⟩ => ⟨S400x2048, .i32⟩
  | .hbm, ⟨32, _⟩ => ⟨S400x2048, .i1⟩
  | .hbm, ⟨33, _⟩ => ⟨S_, .i32⟩
  | .hbm, ⟨34, _⟩ => ⟨S400x2048, .i32⟩
  | .hbm, ⟨35, _⟩ => ⟨S400x2048, .i32⟩
  | .hbm, ⟨36, _⟩ => ⟨S400x2048, .i32⟩
  | .hbm, ⟨37, _⟩ => ⟨S400x2048x1, .i32⟩
  | .hbm, ⟨38, _⟩ => ⟨S400x2048x1, .i32⟩
  | .hbm, ⟨39, _⟩ => ⟨S400x2048x2, .i32⟩
  | .hbm, ⟨40, _⟩ => ⟨S_, .bf16⟩
  | .hbm, ⟨41, _⟩ => ⟨S400x2048, .bf16⟩
  | .hbm, ⟨42, _⟩ => ⟨S51200x2048, .bf16⟩
  | .hbm, ⟨43, _⟩ => ⟨S2048x2, .f32⟩
  | .local _ .vmem, ⟨0, _⟩ => ⟨S2048x1024, .bf16⟩
  | .local _ .vmem, ⟨1, _⟩ => ⟨S2048x1024, .bf16⟩
  | .local _ .vmem, ⟨2, _⟩ => ⟨S2048x3, .bf16⟩
  | .local _ .vmem, ⟨3, _⟩ => ⟨S2048x3, .bf16⟩
  | .local _ .vmem, ⟨4, _⟩ => ⟨S2x2, .f32⟩
  | .local _ .vmem, ⟨5, _⟩ => ⟨S1024x2, .f32⟩
  | .local _ .vmem, ⟨6, _⟩ => ⟨S1024x2, .f32⟩
  | .local _ .vmem, ⟨7, _⟩ => ⟨S1024x3, .f32⟩
  | _, _ => ⟨S400x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v13 : BitVec 1 := Scalar.cmpi .eq arg1 c24_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x3 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S50257x2_S2_d0 : S50257x2.ReducesTo [0] S2
  h_S_ : 0 < S_.numel
  bcast_S2_S1x2_1 : S2.BroadcastsInDim S1x2 (![1] : Fin 1 → Fin S1x2.rank)
  concatenates_S1x2_S1x2_S2x2_d0 : Shape.Concatenates [S1x2, S1x2] S2x2 0
  pads_S50257x2_S51200x2_09430_000 : S50257x2.Pads (![0, 0] : Fin 2 → Nat) ![943, 0] ![0, 0] S51200x2
  bcast_S_S51200x1 : S_.BroadcastsInDim S51200x1 (![] : Fin 0 → Fin S51200x1.rank)
  concatenates_S51200x2_S51200x1_S51200x3_d1 : Shape.Concatenates [S51200x2, S51200x1] S51200x3 1
  bitsLt_bf16_f32 : FTy.bits .bf16 < FTy.bits .f32
  bcast_S2048_S1x2048_1 : S2048.BroadcastsInDim S1x2048 (![1] : Fin 1 → Fin S1x2048.rank)
  bcast_S1x2048_S400x2048_0_1 : S1x2048.BroadcastsInDim S400x2048 (![0, 1] : Fin 2 → Fin S400x2048.rank)
  bcast_S_S51200x2048 : S_.BroadcastsInDim S51200x2048 (![] : Fin 0 → Fin S51200x2048.rank)
  bcast_S_S400x2048 : S_.BroadcastsInDim S400x2048 (![] : Fin 0 → Fin S400x2048.rank)
  bcast_S400x2048_S400x2048x1_0_1 : S400x2048.BroadcastsInDim S400x2048x1 (![0, 1] : Fin 2 → Fin S400x2048x1.rank)
  concatenates_S400x2048x1_S400x2048x1_S400x2048x2_d2 : Shape.Concatenates [S400x2048x1, S400x2048x1] S400x2048x2 2
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S2x2_S1x2_0_0 : ∀ a, (![0, 0] : Fin 2 → Nat) a + S1x2.size a ≤ S2x2.size a
  h_S1x2 : 0 < S1x2.numel
  shapeCasts_S1x2_S1x2 : S1x2.ShapeCasts S1x2
  inb_S2x2_S1x2_1_0 : ∀ a, (![1, 0] : Fin 2 → Nat) a + S1x2.size a ≤ S2x2.size a
  slices_S1024x3_o0_0_S1024x2 : S1024x3.Slices ![0, 0] S1024x2
  slices_S1024x3_o0_2_S1024x1 : S1024x3.Slices ![0, 2] S1024x1
  broadcasts_S1024x1_S1024x2 : S1024x1.Broadcasts S1024x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  scatter_S51200x2048_S400x2048x2_S400x2048_n_01_01_2_wf : ScatterDims.WF S51200x2048 S400x2048x2 S400x2048 [] [0, 1] [0, 1] 2
  dot_S2048x1024_S2048x3_S1024x3_0_0_1_1_n_n_wf : DotDims.WF S2048x1024 S2048x3 S1024x3 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S51200x2048.size a
  hwx0_0 : ∀ i : grid0.Coords, EltTy.bits .bf16 = 32 ∨ (Rect.block (s := S51200x2048) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S51200x3.size a
  hwx0_1 : ∀ i : grid0.Coords, EltTy.bits .bf16 = 32 ∨ (Rect.block (s := S51200x3) S2048x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x2.size a ≤ S2x2.size a
  hwx0_2 : ∀ i : grid0.Coords, EltTy.bits .f32 = 32 ∨ (Rect.block (s := S2x2) S2x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2.size a ≤ S2048x2.size a
  hwx0_3 : ∀ i : grid0.Coords, EltTy.bits .f32 = 32 ∨ (Rect.block (s := S2048x2) S1024x2.size (cc0_transform_3 i) (hinb0_3 i)).WholeWords (EltTy.packing .f32)

variable [Facts₀]

def scatter_S51200x2048_S400x2048x2_S400x2048_n_01_01_2 : ScatterDims S51200x2048 S400x2048x2 S400x2048 where
  updateWindowDims := []
  insertedWindowDims := [0, 1]
  scatterDimsToOperandDims := [0, 1]
  indexVectorDim := 2
  wf := scatter_S51200x2048_S400x2048x2_S400x2048_n_01_01_2_wf
def dot_S2048x1024_S2048x3_S1024x3_0_0_1_1_n_n : DotDims S2048x1024 S2048x3 S1024x3 where
  lhsContracting := [0]
  rhsContracting := [0]
  lhsNonContracting := [1]
  rhsNonContracting := [1]
  lhsBatch := []
  rhsBatch := []
  wf := dot_S2048x1024_S2048x3_S1024x3_0_0_1_1_n_n_wf

abbrev win0_0 : Pipeline.Window sig grid0 :=
  Pipeline.Window.ofSpec (Memref.whole main_v29) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1024x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S400x2048 : Shape := ⟨2, ![400, 2048]⟩
abbrev S50257x2 : Shape := ⟨2, ![50257, 2]⟩
abbrev S2 : Shape := ⟨1, ![2]⟩
abbrev S2048 : Shape := ⟨1, ![2048]⟩
abbrev S_ : Shape := ⟨0, ![]⟩
abbrev S50257x2048 : Shape := ⟨2, ![50257, 2048]⟩
abbrev S400x2048x1 : Shape := ⟨3, ![400, 2048, 1]⟩
abbrev S400x2048x2 : Shape := ⟨3, ![400, 2048, 2]⟩
abbrev S2048x50257 : Shape := ⟨2, ![2048, 50257]⟩
abbrev S2048x2 : Shape := ⟨2, ![2048, 2]⟩
abbrev S2048x1 : Shape := ⟨2, ![2048, 1]⟩
abbrev S1x2 : Shape := ⟨2, ![1, 2]⟩

abbrev nBuf : Space → Nat
  | .hbm => 45
  | .vmem => 0
  | .smem => 0
  | _ => 0

abbrev bufTy : (tb : Table) → Fin (tcTables nBuf tb) → BufTy
  | .hbm, ⟨0, _⟩ => ⟨S400x2048, .i32⟩
  | .hbm, ⟨1, _⟩ => ⟨S50257x2, .f32⟩
  | .hbm, ⟨2, _⟩ => ⟨S2, .f32⟩
  | .hbm, ⟨3, _⟩ => ⟨S2048, .i32⟩
  | .hbm, ⟨4, _⟩ => ⟨S400x2048, .i32⟩
  | .hbm, ⟨5, _⟩ => ⟨S_, .f32⟩
  | .hbm, ⟨6, _⟩ => ⟨S50257x2048, .f32⟩
  | .hbm, ⟨7, _⟩ => ⟨S_, .i32⟩
  | .hbm, ⟨8, _⟩ => ⟨S400x2048, .i32⟩
  | .hbm, ⟨9, _⟩ => ⟨S400x2048, .i1⟩
  | .hbm, ⟨10, _⟩ => ⟨S_, .i32⟩
  | .hbm, ⟨11, _⟩ => ⟨S400x2048, .i32⟩
  | .hbm, ⟨12, _⟩ => ⟨S400x2048, .i32⟩
  | .hbm, ⟨13, _⟩ => ⟨S400x2048, .i32⟩
  | .hbm, ⟨14, _⟩ => ⟨S_, .i32⟩
  | .hbm, ⟨15, _⟩ => ⟨S400x2048, .i32⟩
  | .hbm, ⟨16, _⟩ => ⟨S400x2048, .i1⟩
  | .hbm, ⟨17, _⟩ => ⟨S_, .i32⟩
  | .hbm, ⟨18, _⟩ => ⟨S400x2048, .i32⟩
  | .hbm, ⟨19, _⟩ => ⟨S400x2048, .i32⟩
  | .hbm, ⟨20, _⟩ => ⟨S400x2048, .i32⟩
  | .hbm, ⟨21, _⟩ => ⟨S400x2048x1, .i32⟩
  | .hbm, ⟨22, _⟩ => ⟨S400x2048x1, .i32⟩
  | .hbm, ⟨23, _⟩ => ⟨S400x2048x2, .i32⟩
  | .hbm, ⟨24, _⟩ => ⟨S_, .f32⟩
  | .hbm, ⟨25, _⟩ => ⟨S400x2048, .f32⟩
  | .hbm, ⟨26, _⟩ => ⟨S50257x2048, .f32⟩
  | .hbm, ⟨27, _⟩ => ⟨S50257x2, .f32⟩
  | .hbm, ⟨28, _⟩ => ⟨S_, .f32⟩
  | .hbm, ⟨29, _⟩ => ⟨S2, .f32⟩
  | .hbm, ⟨30, _⟩ => ⟨S2, .f32⟩
  | .hbm, ⟨31, _⟩ => ⟨S_, .f32⟩
  | .hbm, ⟨32, _⟩ => ⟨S2048, .f32⟩
  | .hbm, ⟨33, _⟩ => ⟨S2048x50257, .f32⟩
  | .hbm, ⟨34, _⟩ => ⟨S2048x2, .f32⟩
  | .hbm, ⟨35, _⟩ => ⟨S2048x1, .f32⟩
  | .hbm, ⟨36, _⟩ => ⟨S1x2, .f32⟩
  | .hbm, ⟨37, _⟩ => ⟨S2048x2, .f32⟩
  | .hbm, ⟨38, _⟩ => ⟨S2048x2, .f32⟩
  | .hbm, ⟨39, _⟩ => ⟨S2048x2, .f32⟩
  | .hbm, ⟨40, _⟩ => ⟨S2048x2, .f32⟩
  | .hbm, ⟨41, _⟩ => ⟨S2, .f32⟩
  | .hbm, ⟨42, _⟩ => ⟨S1x2, .f32⟩
  | .hbm, ⟨43, _⟩ => ⟨S2048x2, .f32⟩
  | .hbm, ⟨44, _⟩ => ⟨S2048x2, .f32⟩
  | _, _ => ⟨S400x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  bcast_S2048_S400x2048_1 : S2048.BroadcastsInDim S400x2048 (![1] : Fin 1 → Fin S400x2048.rank)
  bcast_S_S50257x2048 : S_.BroadcastsInDim S50257x2048 (![] : Fin 0 → Fin S50257x2048.rank)
  bcast_S_S400x2048 : S_.BroadcastsInDim S400x2048 (![] : Fin 0 → Fin S400x2048.rank)
  bcast_S400x2048_S400x2048x1_0_1 : S400x2048.BroadcastsInDim S400x2048x1 (![0, 1] : Fin 2 → Fin S400x2048x1.rank)
  concatenates_S400x2048x1_S400x2048x1_S400x2048x2_d2 : Shape.Concatenates [S400x2048x1, S400x2048x1] S400x2048x2 2
  reducesTo_S50257x2_S2_d0 : S50257x2.ReducesTo [0] S2
  h_S_ : 0 < S_.numel
  reducesTo_S50257x2048_S2048_d0 : S50257x2048.ReducesTo [0] S2048
  transposes_S50257x2048_S2048x50257_1_0 : S50257x2048.Transposes [1, 0] S2048x50257
  bcast_S2048_S2048x1_0 : S2048.BroadcastsInDim S2048x1 (![0] : Fin 1 → Fin S2048x1.rank)
  bcast_S2_S1x2_1 : S2.BroadcastsInDim S1x2 (![1] : Fin 1 → Fin S1x2.rank)
  bcast_S2048x1_S2048x2_0_1 : S2048x1.BroadcastsInDim S2048x2 (![0, 1] : Fin 2 → Fin S2048x2.rank)
  bcast_S1x2_S2048x2_0_1 : S1x2.BroadcastsInDim S2048x2 (![0, 1] : Fin 2 → Fin S2048x2.rank)
  scatter_S50257x2048_S400x2048x2_S400x2048_n_01_01_2_wf : ScatterDims.WF S50257x2048 S400x2048x2 S400x2048 [] [0, 1] [0, 1] 2
  dot_S2048x50257_S50257x2_S2048x2_1_0_0_1_n_n_wf : DotDims.WF S2048x50257 S50257x2 S2048x2 [1] [0] [0] [1] [] []

variable [Facts₀]

def scatter_S50257x2048_S400x2048x2_S400x2048_n_01_01_2 : ScatterDims S50257x2048 S400x2048x2 S400x2048 where
  updateWindowDims := []
  insertedWindowDims := [0, 1]
  scatterDimsToOperandDims := [0, 1]
  indexVectorDim := 2
  wf := scatter_S50257x2048_S400x2048x2_S400x2048_n_01_01_2_wf
def dot_S2048x50257_S50257x2_S2048x2_1_0_0_1_n_n : DotDims S2048x50257 S50257x2 S2048x2 where
  lhsContracting := [1]
  rhsContracting := [0]
  lhsNonContracting := [0]
  rhsNonContracting := [1]
  lhsBatch := []
  rhsBatch := []
  wf := dot_S2048x50257_S50257x2_S2048x2_1_0_0_1_n_n_wf

class Facts : Prop extends Facts₀ where

variable [Facts]
-- ==== Proof.Spec.lean ====
/- What both programs compute, as one function of the three argument arrays.

   `x` is a table of token ids (400 rows, 2048 columns), `xy` a table of counts (50257 tokens, 2
   classes), `yc` two class counts.  Token `v` is PRESENT in column `j` when some row of column `j`
   holds `v`; the presence indicator is 1 there and 0 elsewhere (a set, not a multiset: repeated
   tokens count once).  The score of column `j` for class `y` is

     (sum over tokens v of presence(v, j) * log xy[v, y])
       - (number of present tokens in column j) * log (sum over v of xy[v, y])  +  log yc[y].

   Only commutativity and associativity of the sum on the extended reals are used to bring the
   two programs to this form, so no finiteness of the counts is needed. -/
import Idealize.ShloMosaic.PureOps.Ideal
import Idealize.ShloMosaic.Lib.ValueIdx

noncomputable section

namespace Cert.Hand

open Idealize.ShloMosaic Idealize.ShloMosaic.ValueIdx

/-- The token table: 400 rows, 2048 columns of 32-bit words. -/
abbrev Tok := (⟨2, ![400, 2048]⟩ : Shape).Idx → BitVec 32

/-- Token `v` occurs somewhere in column `j`. -/
def occurs (x : Tok) (v : ℕ) (j : Fin 2048) : Prop := ∃ s : Fin 400, (x (ix2 s j)).toNat = v

open Classical in
/-- The presence indicator of token `v` in column `j`. -/
def pres (x : Tok) (v : ℕ) (j : Fin 2048) : EReal := if occurs x v j then 1 else 0

theorem pres_of_occurs {x : Tok} {v : ℕ} {j : Fin 2048} (h : occurs x v j) : pres x v j = 1 := by
  unfold pres; exact if_pos h

theorem pres_of_not_occurs {x : Tok} {v : ℕ} {j : Fin 2048} (h : ¬occurs x v j) : pres x v j = 0 := by
  unfold pres; exact if_neg h

/-- When every token id is below 50257, no token from 50257 on is present anywhere. -/
theorem pres_eq_zero_of_le {x : Tok} (hx : ∀ i, (x i).toNat < 50257) {v : ℕ} (hv : 50257 ≤ v) (j : Fin 2048) :
    pres x v j = 0 :=
  pres_of_not_occurs fun ⟨s, hs⟩ => by have := hx (ix2 s j); omega

/-- The score of column `i 0` for class `i 1`. -/
def score (x : Tok) (xy : (⟨2, ![50257, 2]⟩ : Shape).Idx → EReal) (yc : (⟨1, ![2]⟩ : Shape).Idx → EReal)
    (i : (⟨2, ![2048, 2]⟩ : Shape).Idx) : EReal :=
  (∑ k : Fin 50257, pres x k.val (i 0) * Ideal.log (xy (ix2 k (i 1))))
    - (0 + ∑ k : Fin 50257, pres x k.val (i 0)) * Ideal.log (0 + ∑ k : Fin 50257, xy (ix2 k (i 1)))
    + Ideal.log (yc (ix1 (i 1)))

/-- A sum over 25 tiles of 2048 consecutive tokens is the sum over all 51200 tokens. -/
theorem sum_tiles (f : ℕ → EReal) :
    ∑ t : Fin 25, ∑ k : Fin 2048, f (t.val * 2048 + k.val) = ∑ v : Fin 51200, f v.val := by
  rw [← Finset.sum_product', Finset.univ_product_univ]
  refine Finset.sum_bij' (fun p _ => (⟨p.1.val * 2048 + p.2.val, by have := p.1.isLt; have := p.2.isLt; omega⟩ : Fin 51200))
    (fun v _ => ((⟨v.val / 2048, by have := v.isLt; omega⟩ : Fin 25), (⟨v.val % 2048, Nat.mod_lt _ (by norm_num)⟩ : Fin 2048)))
    (fun _ _ => Finset.mem_univ _) (fun _ _ => Finset.mem_univ _) ?_ ?_ (fun _ _ => rfl)
  · rintro ⟨t, k⟩ _
    have := k.isLt
    refine Prod.ext (Fin.ext ?_) (Fin.ext ?_)
    · show (t.val * 2048 + k.val) / 2048 = t.val; omega
    · show (t.val * 2048 + k.val) % 2048 = k.val; omega
  · intro v _
    refine Fin.ext ?_
    show v.val / 2048 * 2048 + v.val % 2048 = v.val
    omega

/-- A sum over 51200 tokens whose terms vanish from 50257 on is the sum over the first 50257. -/
theorem sum_pad (f : ℕ → EReal) (h : ∀ v, 50257 ≤ v → f v = 0) :
    ∑ v : Fin 51200, f v.val = ∑ v : Fin 50257, f v.val := by
  rw [Fin.sum_univ_eq_sum_range (fun v => f v) 51200, Fin.sum_univ_eq_sum_range (fun v => f v) 50257]
  rw [← Finset.sum_range_add_sum_Ico f (show 50257 ≤ 51200 by norm_num)]
  rw [Finset.sum_eq_zero (s := Finset.Ico 50257 51200) (fun v hv => h v (Finset.mem_Ico.1 hv).1), add_zero]

end Cert.Hand

end
-- ==== Proof.PreTok.lean ====
/- The token range, decoded out of the precondition.

   The precondition is the conjunction of four "every element satisfies ..." statements; the last
   two say that every token word is at least 0 and below 50257 as a signed number.  A 32-bit word
   whose signed value lies in [0, 50257) has that same value unsigned, so every token id, read as
   a natural number, is below 50257. -/
import proofs.«108031_j3221225472037_1_alg».proof.Proof.Gen.Pre_finite_inputs
import proofs.«108031_j3221225472037_1_alg».proof.Proof.Spec
import Idealize.ShloMosaic.Lib.ReduceAll
import Idealize.ShloMosaic.Lib.ValueIdx

noncomputable section

namespace Cert.Hand

open Idealize.ShloMosaic Cert.Hand

/-- The scalar shape has exactly one index. -/
instance subsingleton_scalar_idx : Subsingleton Cert.Pre_finite_inputs.S_.Idx :=
  ⟨fun a b => funext fun d => d.elim0⟩

/-- A 32-bit word that is at least 0 and below 50257 as a signed number is below 50257 unsigned. -/
theorem toNat_lt_of_signed (w : BitVec 32) (h0 : IntOp.cmpi .sge w (0#32) = 1#1)
    (h1 : IntOp.cmpi .slt w (50257#32) = 1#1) : w.toNat < 50257 := by
  rw [IntOp.cmpi_sge] at h0
  rw [IntOp.cmpi_slt] at h1
  have e0 : (0#32 : BitVec 32).toInt = 0 := by decide
  have e1 : (50257#32 : BitVec 32).toInt = 50257 := by decide
  rw [e0] at h0
  rw [e1] at h1
  have h32 := w.isLt
  rw [BitVec.toInt_eq_toNat_cond] at h0 h1
  split at h0 <;> omega

/-- Under the precondition every token id is below 50257. -/
theorem tok_lt_of_pre (x : Tok) (a1 : FVec Ideal Cert.Pre_finite_inputs.S50257x2 .f32)
    (a2 : FVec Ideal Cert.Pre_finite_inputs.S2 .f32)
    (h : Cert.Pre_finite_inputs.fn (F := Ideal) x a1 a2 = fun _ => 1#1) : ∀ i, (x i).toNat < 50257 := by
  intro i
  have h0 := congrFun h ValueIdx.ix0
  dsimp only [Cert.Pre_finite_inputs.fn, Cert.Pre_finite_inputs.fn_part1] at h0
  obtain ⟨h12, h15⟩ := IntOp.andi_eq_one.1 h0
  obtain ⟨_, h11⟩ := IntOp.andi_eq_one.1 h12
  have hge := Host.reduce_andi_all _ _ _ _ _ h11 i
  have hlt := Host.reduce_andi_all _ _ _ _ _ h15 i
  exact toNat_lt_of_signed (x i) hge hlt

end Cert.Hand

end
-- ==== Proof.SetFold.lean ====
/- A left fold of "overwrite one cell with a fixed value" steps, read at a cell.

   Each step either names a cell (and overwrites it with the constant `c`) or names none (and
   changes nothing).  After the whole fold a cell holds `c` when some step named it, and its
   initial content when no step did: the order of the steps does not matter, because every
   overwrite writes the same value. -/
import Mathlib.Data.List.Basic

namespace Cert.Hand

variable {ι κ α : Type*} [DecidableEq ι]

/-- One step of the fold: overwrite the cell `g n` names, if it names one. -/
def setStep (g : κ → Option ι) (c : α) (r : ι → α) (n : κ) : ι → α :=
  match g n with
  | some i => fun i' => if i' = i then c else r i'
  | none => r

theorem setStep_hit (g : κ → Option ι) (c : α) (r : ι → α) (n : κ) (i : ι) (h : g n = some i) :
    setStep g c r n i = c := by
  unfold setStep; rw [h]; simp

theorem setStep_miss (g : κ → Option ι) (c : α) (r : ι → α) (n : κ) (i : ι) (h : g n ≠ some i) :
    setStep g c r n i = r i := by
  unfold setStep
  cases hg : g n with
  | none => rfl
  | some k =>
    have : i ≠ k := fun e => h (by rw [hg, e])
    simp [this]

/-- A cell no step names keeps its initial content. -/
theorem foldl_setStep_miss (g : κ → Option ι) (c : α) (L : List κ) (x : ι → α) (i : ι)
    (h : ∀ n ∈ L, g n ≠ some i) : (L.foldl (setStep g c) x) i = x i := by
  induction L generalizing x with
  | nil => rfl
  | cons a L ih =>
    rw [List.foldl_cons, ih _ (fun n hn => h n (List.mem_cons_of_mem _ hn)),
      setStep_miss g c x a i (h a (List.mem_cons_self ..))]

/-- A cell some step names ends at the constant. -/
theorem foldl_setStep_hit (g : κ → Option ι) (c : α) (L : List κ) (x : ι → α) (i : ι)
    (h : ∃ n ∈ L, g n = some i) : (L.foldl (setStep g c) x) i = c := by
  induction L generalizing x with
  | nil => obtain ⟨n, hn, _⟩ := h; cases hn
  | cons a L ih =>
    rw [List.foldl_cons]
    by_cases hL : ∃ n ∈ L, g n = some i
    · exact ih _ hL
    · have hL' : ∀ n ∈ L, g n ≠ some i := fun n hn e => hL ⟨n, hn, e⟩
      rw [foldl_setStep_miss g c L _ i hL']
      obtain ⟨n, hn, e⟩ := h
      rcases List.mem_cons.1 hn with rfl | hn
      · exact setStep_hit g c x n i e
      · exact absurd e (hL' n hn)

end Cert.Hand
-- ==== Proof.ScatterRead.lean ====
/- Reading the two "write a one at every (token, column) cell that occurs" scatters at a cell.

   Both programs start from an array holding one constant `z` everywhere and, for every cell `(s, b)`
   of the 400 by 2048 token table, overwrite the cell `(x[s, b], b)` of the array with a second
   constant `o`.  Each update names exactly one cell (no window axes), the start index is read signed
   and is in range because token ids are below the number of rows, so no update is dropped.  Every
   overwrite writes the same value, hence the order of the updates is irrelevant: afterwards cell
   `(v, j)` holds `o` when token `v` occurs in column `j` and `z` when it does not.

   The argument is carried out once for an operand of `N` rows (the dimension numbers are the same
   for both programs) and then instantiated at the two row counts.

   The second half reads the index array each program builds: component 0 of cell `(s, b)` is the
   token `x[s, b]` and component 1 is the column number `b`; the "add the extent when negative"
   wrap-around both programs apply leaves them alone because both are non-negative. -/
import proofs.«108031_j3221225472037_1_alg».proof.Proof.Spec
import proofs.«108031_j3221225472037_1_alg».proof.Proof.SetFold
import proofs.«108031_j3221225472037_1_alg».proof.Proof.Gen.KernelIdeal
import proofs.«108031_j3221225472037_1_alg».proof.Proof.Gen.ReferenceIdeal
import proofs.«108031_j3221225472037_1_alg».proof.Proof.Gen.ReferenceIdeal.Read
import Idealize.ShloMosaic.Lib.Pipeline.Value

noncomputable section

namespace Cert.Hand

open Idealize.ShloMosaic Idealize.ShloMosaic.ValueIdx

/-- The dimension numbers of "write one element per token": operand of N rows and 2048 columns, one
    two-component start index per cell of the 400 by 2048 token table, no window axes. -/
abbrev scatDims (N : Nat)
    (wf : ScatterDims.WF ⟨2, ![N, 2048]⟩ ⟨3, ![400, 2048, 2]⟩ ⟨2, ![400, 2048]⟩ [] [0, 1] [0, 1] 2) :
    ScatterDims ⟨2, ![N, 2048]⟩ ⟨3, ![400, 2048, 2]⟩ ⟨2, ![400, 2048]⟩ where
  updateWindowDims := []
  insertedWindowDims := [0, 1]
  scatterDimsToOperandDims := [0, 1]
  indexVectorDim := 2
  wf := wf

section
variable {N : Nat}
  (wf : ScatterDims.WF ⟨2, ![N, 2048]⟩ ⟨3, ![400, 2048, 2]⟩ ⟨2, ![400, 2048]⟩ [] [0, 1] [0, 1] 2)

theorem scat_siIdx0 (s : Fin 400) (b : Fin 2048) (h) :
    (scatDims N wf).siIdx (ix2 s b) ⟨List.idxOf (0 : Fin 2) [0, 1], h⟩ = ix3 s b 0 := by
  funext c; refine Fin.ext ?_
  match c with
  | ⟨0, _⟩ => rfl
  | ⟨1, _⟩ => rfl
  | ⟨2, _⟩ => rfl

theorem scat_siIdx1 (s : Fin 400) (b : Fin 2048) (h) :
    (scatDims N wf).siIdx (ix2 s b) ⟨List.idxOf (1 : Fin 2) [0, 1], h⟩ = ix3 s b 1 := by
  funext c; refine Fin.ext ?_
  match c with
  | ⟨0, _⟩ => rfl
  | ⟨1, _⟩ => rfl
  | ⟨2, _⟩ => rfl

theorem scat_start0 {w : Nat} (idx : IVec ⟨3, ![400, 2048, 2]⟩ w) (s : Fin 400) (b : Fin 2048) :
    (scatDims N wf).start (ix2 s b) idx 0 = (idx (ix3 s b 0)).toInt := by
  unfold ScatterDims.start
  rw [dif_pos (show (0 : Fin 2) ∈ ([0, 1] : List (Fin 2)) from by decide)]
  exact congrArg (fun k => (idx k).toInt) (scat_siIdx0 wf s b _)

theorem scat_start1 {w : Nat} (idx : IVec ⟨3, ![400, 2048, 2]⟩ w) (s : Fin 400) (b : Fin 2048) :
    (scatDims N wf).start (ix2 s b) idx 1 = (idx (ix3 s b 1)).toInt := by
  unfold ScatterDims.start
  rw [dif_pos (show (1 : Fin 2) ∈ ([0, 1] : List (Fin 2)) from by decide)]
  exact congrArg (fun k => (idx k).toInt) (scat_siIdx1 wf s b _)

theorem scat_window (j : (⟨2, ![400, 2048]⟩ : Shape).Idx) (a : Fin 2) :
    (scatDims N wf).window j a = 0 := by
  unfold ScatterDims.window
  have key : ∀ a : Fin 2, a ∉ (List.finRange 2).filter (· ∉ ([0, 1] : List (Fin 2))) := by decide
  exact dif_neg (key a)

/-- An update whose start index names row `r` and its own column lands at cell `(r, b)`. -/
theorem scat_resultIdx {w : Nat} (idx : IVec ⟨3, ![400, 2048, 2]⟩ w) (s : Fin 400) (b : Fin 2048) (r : Fin N)
    (h0 : (idx (ix3 s b 0)).toInt = (r.val : Int)) (h1 : (idx (ix3 s b 1)).toInt = (b.val : Int)) :
    (scatDims N wf).resultIdx? (ix2 s b) idx = some (ix2 r b) := by
  have e0 : (scatDims N wf).start (ix2 s b) idx 0 + ((scatDims N wf).window (ix2 s b) 0 : Nat) = (r.val : Int) := by
    rw [scat_start0, scat_window, h0]; simp
  have e1 : (scatDims N wf).start (ix2 s b) idx 1 + ((scatDims N wf).window (ix2 s b) 1 : Nat) = (b.val : Int) := by
    rw [scat_start1, scat_window, h1]; simp
  have hc : ∀ a : Fin 2, 0 ≤ (scatDims N wf).start (ix2 s b) idx a + ((scatDims N wf).window (ix2 s b) a : Nat) ∧
      (scatDims N wf).start (ix2 s b) idx a + ((scatDims N wf).window (ix2 s b) a : Nat) < ((⟨2, ![N, 2048]⟩ : Shape).size a : Nat) := by
    intro a
    match a with
    | ⟨0, _⟩ =>
      have := r.isLt
      show 0 ≤ (scatDims N wf).start (ix2 s b) idx 0 + ((scatDims N wf).window (ix2 s b) 0 : Nat) ∧
        (scatDims N wf).start (ix2 s b) idx 0 + ((scatDims N wf).window (ix2 s b) 0 : Nat) < (N : Int)
      rw [e0]; omega
    | ⟨1, _⟩ =>
      have := b.isLt
      show 0 ≤ (scatDims N wf).start (ix2 s b) idx 1 + ((scatDims N wf).window (ix2 s b) 1 : Nat) ∧
        (scatDims N wf).start (ix2 s b) idx 1 + ((scatDims N wf).window (ix2 s b) 1 : Nat) < (2048 : Int)
      rw [e1]; omega
  unfold ScatterDims.resultIdx?
  rw [dif_pos hc]
  refine congrArg some ?_
  funext a
  refine Fin.ext ?_
  match a with
  | ⟨0, _⟩ =>
    show ((scatDims N wf).start (ix2 s b) idx 0 + ((scatDims N wf).window (ix2 s b) 0 : Nat)).toNat = r.val
    rw [e0]; simp
  | ⟨1, _⟩ =>
    show ((scatDims N wf).start (ix2 s b) idx 1 + ((scatDims N wf).window (ix2 s b) 1 : Nat)).toNat = b.val
    rw [e1]; simp

/-- With the update rule "take the update" and constant arrays, the scatter is a left fold of
    "overwrite the cell this update names with the constant" steps over the update indices. -/
theorem scat_fold {α : Type} {w : Nat} (idx : IVec ⟨3, ![400, 2048, 2]⟩ w) (z o : α) :
    Host.scatter (scatDims N wf) (fun _ b => b) (fun _ => z) idx (fun _ => o)
      = (List.finRange (⟨2, ![400, 2048]⟩ : Shape).numel).foldl
          (setStep (fun n => (scatDims N wf).resultIdx? ((⟨2, ![400, 2048]⟩ : Shape).rowMajor.symm n) idx) o)
          (fun _ => z) := by
  unfold Host.scatter
  refine congrArg (fun f => List.foldl f (fun _ => z) (List.finRange (⟨2, ![400, 2048]⟩ : Shape).numel)) ?_
  funext r n
  unfold setStep
  dsimp only
  cases (scatDims N wf).resultIdx? ((⟨2, ![400, 2048]⟩ : Shape).rowMajor.symm n) idx with
  | none => rfl
  | some i => rfl

section
variable (idx : IVec ⟨3, ![400, 2048, 2]⟩ 32) (x : Tok)
  (hxN : ∀ i, (x i).toNat < N) (hx31 : ∀ i, 2 * (x i).toNat < 2 ^ 32)
  (h0 : ∀ (s : Fin 400) (b : Fin 2048), idx (ix3 s b 0) = x (ix2 s b))
  (h1 : ∀ (s : Fin 400) (b : Fin 2048), idx (ix3 s b 1) = BitVec.ofNat 32 b.val)
include h0 h1 hx31 hxN

/-- Update `(s, b)` lands at the cell whose row is the token at `(s, b)` and whose column is `b`. -/
theorem scat_cell (s : Fin 400) (b : Fin 2048) :
    (scatDims N wf).resultIdx? (ix2 s b) idx = some (ix2 (⟨(x (ix2 s b)).toNat, hxN _⟩ : Fin N) b) := by
  refine scat_resultIdx wf idx s b ⟨_, hxN _⟩ ?_ ?_
  · rw [h0]; exact BitVec.toInt_eq_toNat_of_lt (hx31 _)
  · have hb : (BitVec.ofNat 32 b.val).toNat = b.val := by
      rw [BitVec.toNat_ofNat]; exact Nat.mod_eq_of_lt (by have := b.isLt; omega)
    rw [h1, BitVec.toInt_eq_toNat_of_lt (by rw [hb]; have := b.isLt; omega), hb]

/-- A cell `(v, j)` whose token occurs in column `j` holds the update constant. -/
theorem scat_apply_of_occurs {α : Type} (z o : α) (v : Fin N) (j : Fin 2048) (h : occurs x v.val j) :
    Host.scatter (scatDims N wf) (fun _ b => b) (fun _ => z) idx (fun _ => o) (ix2 v j) = o := by
  rw [scat_fold]
  obtain ⟨s, hs⟩ := h
  refine foldl_setStep_hit _ o _ _ _ ⟨(⟨2, ![400, 2048]⟩ : Shape).rowMajor (ix2 s j), List.mem_finRange _, ?_⟩
  show (scatDims N wf).resultIdx? ((⟨2, ![400, 2048]⟩ : Shape).rowMajor.symm ((⟨2, ![400, 2048]⟩ : Shape).rowMajor (ix2 s j))) idx = _
  rw [Equiv.symm_apply_apply, scat_cell wf idx x hxN hx31 h0 h1 s j]
  have e : (⟨(x (ix2 s j)).toNat, hxN _⟩ : Fin N) = v := Fin.ext hs
  rw [e]

/-- A cell `(v, j)` whose token does not occur in column `j` keeps the operand's constant. -/
theorem scat_apply_of_not_occurs {α : Type} (z o : α) (v : Fin N) (j : Fin 2048) (h : ¬occurs x v.val j) :
    Host.scatter (scatDims N wf) (fun _ b => b) (fun _ => z) idx (fun _ => o) (ix2 v j) = z := by
  rw [scat_fold]
  refine foldl_setStep_miss _ o _ _ _ ?_
  intro n _ e
  obtain ⟨s', b', hn⟩ : ∃ s' b', (⟨2, ![400, 2048]⟩ : Shape).rowMajor.symm n = ix2 s' b' := ⟨_, _, eq_ix2 _⟩
  have e' : (scatDims N wf).resultIdx? ((⟨2, ![400, 2048]⟩ : Shape).rowMajor.symm n) idx = some (ix2 v j) := e
  rw [hn, scat_cell wf idx x hxN hx31 h0 h1 s' b'] at e'
  have e2 := Option.some.inj e'
  have c0 : (⟨(x (ix2 s' b')).toNat, hxN _⟩ : Fin N) = v := congrFun e2 (0 : Fin 2)
  have c1 : b' = j := congrFun e2 (1 : Fin 2)
  subst c1
  exact h ⟨s', congrArg Fin.val c0⟩

end

end

/-! ## The index array both programs build -/

/-- A word that is non-negative when read signed is not signed-less-than zero, so "add the
    extent when negative" leaves it as it is. -/
theorem wrap_nonneg (a c : BitVec 32) (ha : 2 * a.toNat < 2 ^ 32) :
    Scalar.select (IntOp.cmpi .slt a 0#32) (IntOp.addi a c) a = a := by
  have hs : a.slt 0#32 = false := by
    unfold BitVec.slt
    refine decide_eq_false ?_
    rw [BitVec.toInt_eq_toNat_of_lt ha, BitVec.toInt_zero]
    omega
  show Scalar.select (BitVec.ofBool (a.slt 0#32)) (IntOp.addi a c) a = a
  rw [hs]
  exact select_zero _ _

/-- A column number below 2048, as a word, is non-negative when read signed. -/
theorem wrap_col (b : Fin 2048) (c : BitVec 32) :
    Scalar.select (IntOp.cmpi .slt (BitVec.ofNat 32 b.val) 0#32) (IntOp.addi (BitVec.ofNat 32 b.val) c)
      (BitVec.ofNat 32 b.val) = BitVec.ofNat 32 b.val := by
  refine wrap_nonneg _ c ?_
  rw [BitVec.toNat_ofNat, Nat.mod_eq_of_lt (by have := b.isLt; omega)]
  have := b.isLt; omega

section Layout
variable {α : Type}

/-- Joining two arrays of one last coordinate each along the last axis: last coordinate 0 reads the first. -/
theorem concat_left (h : Shape.Concatenates [⟨3, ![400, 2048, 1]⟩, ⟨3, ![400, 2048, 1]⟩] ⟨3, ![400, 2048, 2]⟩ 2)
    (y₁ y₂ : (⟨3, ![400, 2048, 1]⟩ : Shape).Idx → α) (s : Fin 400) (b : Fin 2048) :
    concatenate ⟨3, ![400, 2048, 2]⟩ 2 [⟨⟨3, ![400, 2048, 1]⟩, y₁⟩, ⟨⟨3, ![400, 2048, 1]⟩, y₂⟩] h (ix3 s b 0)
      = y₁ (ix3 s b 0) :=
  concatenate_pair_apply_left 2 y₁ y₂ h (ix3 s b 0) rfl (ix3 s b 0) (fun c => match c with
    | ⟨0, _⟩ => rfl
    | ⟨1, _⟩ => rfl
    | ⟨2, _⟩ => rfl)

/-- ... and last coordinate 1 reads the second. -/
theorem concat_right (h : Shape.Concatenates [⟨3, ![400, 2048, 1]⟩, ⟨3, ![400, 2048, 1]⟩] ⟨3, ![400, 2048, 2]⟩ 2)
    (y₁ y₂ : (⟨3, ![400, 2048, 1]⟩ : Shape).Idx → α) (s : Fin 400) (b : Fin 2048) :
    concatenate ⟨3, ![400, 2048, 2]⟩ 2 [⟨⟨3, ![400, 2048, 1]⟩, y₁⟩, ⟨⟨3, ![400, 2048, 1]⟩, y₂⟩] h (ix3 s b 1)
      = y₂ (ix3 s b 0) :=
  concatenate_pair_apply_right 2 y₁ y₂ h (ix3 s b 1) rfl rfl (ix3 s b 0) (fun c => match c with
    | ⟨0, _⟩ => fun _ => rfl
    | ⟨1, _⟩ => fun _ => rfl
    | ⟨2, _⟩ => fun hc => absurd rfl hc) rfl

/-- Giving a table a trailing axis of extent one keeps its elements. -/
theorem bcast_unit (h : (⟨2, ![400, 2048]⟩ : Shape).BroadcastsInDim ⟨3, ![400, 2048, 1]⟩ ![0, 1])
    (y : (⟨2, ![400, 2048]⟩ : Shape).Idx → α) (s : Fin 400) (b : Fin 2048) :
    broadcastInDim ⟨3, ![400, 2048, 1]⟩ ![0, 1] h y (ix3 s b 0) = y (ix2 s b) :=
  broadcastInDim_apply _ h y (ix3 s b 0) (ix2 s b) (fun a => match a with
    | ⟨0, _⟩ => by show s.val = if (400 : Nat) = 1 then 0 else s.val; rw [if_neg (by decide)]
    | ⟨1, _⟩ => by show b.val = if (2048 : Nat) = 1 then 0 else b.val; rw [if_neg (by decide)])

end Layout

end Cert.Hand

/-! ## The 51200-row operand -/

namespace Cert.Hand.KernelScatter

open Idealize.ShloMosaic Idealize.ShloMosaic.ValueIdx Cert.Hand

/-- The program's record of dimension numbers is the one read above, at 51200 rows. -/
theorem scatter_eq_scatDims :
    Cert.KernelIdeal.scatter_S51200x2048_S400x2048x2_S400x2048_n_01_01_2 = scatDims 51200 Cert.KernelIdeal.scatter_S51200x2048_S400x2048x2_S400x2048_n_01_01_2.wf := rfl

section
variable (idx : IVec ⟨3, ![400, 2048, 2]⟩ 32) (x : Tok) (hx : ∀ i, (x i).toNat < 50257)
  (h0 : ∀ (s : Fin 400) (b : Fin 2048), idx (ix3 s b 0) = x (ix2 s b))
  (h1 : ∀ (s : Fin 400) (b : Fin 2048), idx (ix3 s b 1) = BitVec.ofNat 32 b.val)
include hx h0 h1

/-- A cell whose token occurs in its column holds the update constant. -/
theorem scatter_apply_of_occurs {α : Type} (z o : α) (v : Fin 51200) (j : Fin 2048) (h : occurs x v.val j) :
    Host.scatter Cert.KernelIdeal.scatter_S51200x2048_S400x2048x2_S400x2048_n_01_01_2 (fun _ b => b) (fun _ => z) idx (fun _ => o) (ix2 v j) = o :=
  scat_apply_of_occurs Cert.KernelIdeal.scatter_S51200x2048_S400x2048x2_S400x2048_n_01_01_2.wf idx x (fun i => by have := hx i; omega) (fun i => by have := hx i; omega)
    h0 h1 z o v j h

/-- A cell whose token does not occur in its column keeps the operand's constant. -/
theorem scatter_apply_of_not_occurs {α : Type} (z o : α) (v : Fin 51200) (j : Fin 2048) (h : ¬occurs x v.val j) :
    Host.scatter Cert.KernelIdeal.scatter_S51200x2048_S400x2048x2_S400x2048_n_01_01_2 (fun _ b => b) (fun _ => z) idx (fun _ => o) (ix2 v j) = z :=
  scat_apply_of_not_occurs Cert.KernelIdeal.scatter_S51200x2048_S400x2048x2_S400x2048_n_01_01_2.wf idx x (fun i => by have := hx i; omega) (fun i => by have := hx i; omega)
    h0 h1 z o v j h

open Classical in
/-- The scatter read at cell `(v, j)`: the update constant exactly where token `v` occurs in column `j`. -/
theorem scatter_apply {α : Type} (z o : α) (v : Fin 51200) (j : Fin 2048) :
    Host.scatter Cert.KernelIdeal.scatter_S51200x2048_S400x2048x2_S400x2048_n_01_01_2 (fun _ b => b) (fun _ => z) idx (fun _ => o) (ix2 v j)
      = if occurs x v.val j then o else z := by
  by_cases h : occurs x v.val j
  · rw [if_pos h]; exact scatter_apply_of_occurs idx x hx h0 h1 z o v j h
  · rw [if_neg h]; exact scatter_apply_of_not_occurs idx x hx h0 h1 z o v j h

end

end Cert.Hand.KernelScatter

/-! ## The 50257-row operand -/

namespace Cert.Hand.ReferenceScatter

open Idealize.ShloMosaic Idealize.ShloMosaic.ValueIdx Cert.Hand

/-- The program's record of dimension numbers is the one read above, at 50257 rows. -/
theorem scatter_eq_scatDims :
    Cert.ReferenceIdeal.scatter_S50257x2048_S400x2048x2_S400x2048_n_01_01_2 = scatDims 50257 Cert.ReferenceIdeal.scatter_S50257x2048_S400x2048x2_S400x2048_n_01_01_2.wf := rfl

section
variable (idx : IVec ⟨3, ![400, 2048, 2]⟩ 32) (x : Tok) (hx : ∀ i, (x i).toNat < 50257)
  (h0 : ∀ (s : Fin 400) (b : Fin 2048), idx (ix3 s b 0) = x (ix2 s b))
  (h1 : ∀ (s : Fin 400) (b : Fin 2048), idx (ix3 s b 1) = BitVec.ofNat 32 b.val)
include hx h0 h1

/-- A cell whose token occurs in its column holds the update constant. -/
theorem scatter_apply_of_occurs {α : Type} (z o : α) (v : Fin 50257) (j : Fin 2048) (h : occurs x v.val j) :
    Host.scatter Cert.ReferenceIdeal.scatter_S50257x2048_S400x2048x2_S400x2048_n_01_01_2 (fun _ b => b) (fun _ => z) idx (fun _ => o) (ix2 v j) = o :=
  scat_apply_of_occurs Cert.ReferenceIdeal.scatter_S50257x2048_S400x2048x2_S400x2048_n_01_01_2.wf idx x (fun i => by have := hx i; omega) (fun i => by have := hx i; omega)
    h0 h1 z o v j h

/-- A cell whose token does not occur in its column keeps the operand's constant. -/
theorem scatter_apply_of_not_occurs {α : Type} (z o : α) (v : Fin 50257) (j : Fin 2048) (h : ¬occurs x v.val j) :
    Host.scatter Cert.ReferenceIdeal.scatter_S50257x2048_S400x2048x2_S400x2048_n_01_01_2 (fun _ b => b) (fun _ => z) idx (fun _ => o) (ix2 v j) = z :=
  scat_apply_of_not_occurs Cert.ReferenceIdeal.scatter_S50257x2048_S400x2048x2_S400x2048_n_01_01_2.wf idx x (fun i => by have := hx i; omega) (fun i => by have := hx i; omega)
    h0 h1 z o v j h

open Classical in
/-- The scatter read at cell `(v, j)`: the update constant exactly where token `v` occurs in column `j`. -/
theorem scatter_apply {α : Type} (z o : α) (v : Fin 50257) (j : Fin 2048) :
    Host.scatter Cert.ReferenceIdeal.scatter_S50257x2048_S400x2048x2_S400x2048_n_01_01_2 (fun _ b => b) (fun _ => z) idx (fun _ => o) (ix2 v j)
      = if occurs x v.val j then o else z := by
  by_cases h : occurs x v.val j
  · rw [if_pos h]; exact scatter_apply_of_occurs idx x hx h0 h1 z o v j h
  · rw [if_neg h]; exact scatter_apply_of_not_occurs idx x hx h0 h1 z o v j h

end

end Cert.Hand.ReferenceScatter

/-! ## The kernel program's index array -/

namespace Cert.Hand.KernelScatter

open Idealize.ShloMosaic Idealize.ShloMosaic.ValueIdx Cert.Hand
open Cert.KernelIdeal Cert.KernelIdeal.Facts₀

/-- The table of column numbers: an iota over the 2048 columns, given a unit row axis and then
    repeated over the 400 rows. -/
abbrev colsK : IVec S400x2048 32 :=
  broadcastInDim S400x2048 ![0, 1] bcast_S1x2048_S400x2048_0_1
    (broadcastInDim S1x2048 ![1] bcast_S2048_S1x2048_1 (iotaInDim S2048 32 0))

/-- The index array: per cell of the token table the pair (token, column), each component passed
    through "add the extent when negative". -/
abbrev idxK (x : IVec S400x2048 32) : IVec S400x2048x2 32 :=
  concatenate S400x2048x2 2
    [⟨S400x2048x1, broadcastInDim S400x2048x1 ![0, 1] bcast_S400x2048_S400x2048x1_0_1
        (select (cmpi .slt x (broadcastInDim S400x2048 ![] bcast_S_S400x2048 (constantI S_ 32 0#32)))
          (addi x (broadcastInDim S400x2048 ![] bcast_S_S400x2048 (constantI S_ 32 51200#32))) x)⟩,
     ⟨S400x2048x1, broadcastInDim S400x2048x1 ![0, 1] bcast_S400x2048_S400x2048x1_0_1
        (select (cmpi .slt colsK (broadcastInDim S400x2048 ![] bcast_S_S400x2048 (constantI S_ 32 0#32)))
          (addi colsK (broadcastInDim S400x2048 ![] bcast_S_S400x2048 (constantI S_ 32 2048#32))) colsK)⟩]
    concatenates_S400x2048x1_S400x2048x1_S400x2048x2_d2

/-- The column table holds the column number. -/
theorem colsK_apply (s : Fin 400) (b : Fin 2048) : colsK (ix2 s b) = BitVec.ofNat 32 b.val := by
  refine (broadcastInDim_apply _ bcast_S1x2048_S400x2048_0_1 _ (ix2 s b) (ix2 (0 : Fin 1) b) (fun a => match a with
    | ⟨0, _⟩ => by show (0 : Nat) = if (1 : Nat) = 1 then 0 else s.val; rw [if_pos rfl]
    | ⟨1, _⟩ => by show b.val = if (2048 : Nat) = 1 then 0 else b.val; rw [if_neg (by decide)])).trans ?_
  refine (broadcastInDim_apply _ bcast_S2048_S1x2048_1 _ (ix2 (0 : Fin 1) b) (ix1 b) (fun a => match a with
    | ⟨0, _⟩ => by show b.val = if (2048 : Nat) = 1 then 0 else b.val; rw [if_neg (by decide)])).trans ?_
  rfl

/-- Component 0 of the index array is the token (token ids are non-negative). -/
theorem idxK_tok (x : Tok) (hx : ∀ i, (x i).toNat < 50257) (s : Fin 400) (b : Fin 2048) :
    idxK x (ix3 s b 0) = x (ix2 s b) := by
  refine (concat_left _ _ _ s b).trans ?_
  refine (bcast_unit _ _ s b).trans ?_
  exact wrap_nonneg (x (ix2 s b)) 51200#32 (by have := hx (ix2 s b); omega)

/-- Component 1 of the index array is the column number. -/
theorem idxK_col (x : Tok) (s : Fin 400) (b : Fin 2048) :
    idxK x (ix3 s b 1) = BitVec.ofNat 32 b.val := by
  refine (concat_right _ _ _ s b).trans ?_
  refine (bcast_unit _ _ s b).trans ?_
  show Scalar.select (IntOp.cmpi .slt (colsK (ix2 s b)) 0#32) (IntOp.addi (colsK (ix2 s b)) 2048#32) (colsK (ix2 s b)) = _
  rw [colsK_apply s b]
  exact wrap_col b _

open Classical in
/-- The kernel program's scatter, over the index array it builds, read at cell `(v, j)`. -/
theorem scatter_idxK_apply {α : Type} (x : Tok) (hx : ∀ i, (x i).toNat < 50257) (z o : α) (v : Fin 51200) (j : Fin 2048) :
    Host.scatter scatter_S51200x2048_S400x2048x2_S400x2048_n_01_01_2 (fun _ b => b) (fun _ => z) (idxK x) (fun _ => o) (ix2 v j)
      = if occurs x v.val j then o else z :=
  scatter_apply (idxK x) x hx (idxK_tok x hx) (idxK_col x) z o v j

end Cert.Hand.KernelScatter

/-! ## The reference program's index array -/

namespace Cert.Hand.ReferenceScatter

open Idealize.ShloMosaic Idealize.ShloMosaic.ValueIdx Cert.Hand
open Cert.ReferenceIdeal Cert.ReferenceIdeal.Read

variable {F : FTy → Type} [FloatOps F]

/-- Component 0 of the index array is the token (token ids are non-negative). -/
theorem idxR_tok (x : Tok) (hx : ∀ i, (x i).toNat < 50257) (s : Fin 400) (b : Fin 2048) :
    val_main_v15 (F := F) x (ix3 s b 0) = x (ix2 s b) := by
  unfold val_main_v15 val_main_v13
  refine (concat_left _ _ _ s b).trans ?_
  refine (bcast_unit _ _ s b).trans ?_
  exact wrap_nonneg (x (ix2 s b)) 50257#32 (by have := hx (ix2 s b); omega)

/-- Component 1 of the index array is the column number. -/
theorem idxR_col (x : Tok) (s : Fin 400) (b : Fin 2048) :
    val_main_v15 (F := F) x (ix3 s b 1) = BitVec.ofNat 32 b.val := by
  unfold val_main_v15 val_main_v14
  refine (concat_right _ _ _ s b).trans ?_
  refine (bcast_unit _ _ s b).trans ?_
  have hc : val_main_v1 (F := F) (ix2 s b) = BitVec.ofNat 32 b.val := (val_main_v1_apply (F := F) (ix2 s b)).trans rfl
  show Scalar.select (IntOp.cmpi .slt (val_main_v1 (F := F) (ix2 s b)) 0#32)
    (IntOp.addi (val_main_v1 (F := F) (ix2 s b)) 2048#32) (val_main_v1 (F := F) (ix2 s b)) = _
  rw [hc]
  exact wrap_col b _

open Classical in
/-- The reference program's scatter, over the index array it builds, read at cell `(v, j)`. -/
theorem scatter_idxR_apply {α : Type} (x : Tok) (hx : ∀ i, (x i).toNat < 50257) (z o : α) (v : Fin 50257) (j : Fin 2048) :
    Host.scatter scatter_S50257x2048_S400x2048x2_S400x2048_n_01_01_2 (fun _ b => b) (fun _ => z)
        (val_main_v15 (F := F) x) (fun _ => o) (ix2 v j)
      = if occurs x v.val j then o else z :=
  scatter_apply (val_main_v15 (F := F) x) x hx (idxR_tok x hx) (idxR_col x) z o v j

end Cert.Hand.ReferenceScatter

end
-- ==== Proof.PresenceEq.lean ====
/- The two "write a one at every (token, column) cell that occurs" scatters, with the operand and
   update arrays the programs actually build, are the specification's presence indicator.

   Each program scatters into an array holding the bit pattern of zero everywhere, with an update
   array holding the bit pattern of one everywhere (16-bit patterns in one program, 32-bit patterns
   in the other).  Read at the ideal instance both patterns are the extended reals 0 and 1, so by
   the scatter read (a cell holds the update constant exactly when its token occurs in its column)
   cell `(v, j)` is 1 when token `v` occurs in column `j` and 0 otherwise. -/
import proofs.«108031_j3221225472037_1_alg».proof.Proof.ScatterRead
import Idealize.ShloMosaic.Lib.IdealHost
import Idealize.ShloMosaic.PureOps.Ideal.Laws

noncomputable section

namespace Cert.Hand

open Idealize.ShloMosaic Idealize.ShloMosaic.ValueIdx

section Kernel
open Cert.KernelIdeal Cert.KernelIdeal.Facts₀

/-- The kernel program's scatter writes the bit pattern of one over an array of the bit pattern of
    zero, at every (token, column) cell that occurs: read at the ideal instance it is the presence
    indicator. -/
theorem presK_apply (x : Tok) (hx : ∀ i, (x i).toNat < 50257) (v : Fin 51200) (j : Fin 2048) :
    Host.scatter scatter_S51200x2048_S400x2048x2_S400x2048_n_01_01_2 (fun _ b => b)
      (broadcastInDim S51200x2048 ![] bcast_S_S51200x2048 (constant (F := Ideal) S_ .bf16 0x0000#16))
      (KernelScatter.idxK x)
      (broadcastInDim S400x2048 ![] bcast_S_S400x2048 (constant (F := Ideal) S_ .bf16 0x3F80#16)) (ix2 v j)
      = pres x v.val j := by
  have hz : (broadcastInDim S51200x2048 ![] bcast_S_S51200x2048 (constant (F := Ideal) S_ .bf16 0x0000#16))
      = fun _ => (0 : EReal) := by
    funext i; exact Ideal.ofBits_zero_bf16
  have ho : (broadcastInDim S400x2048 ![] bcast_S_S400x2048 (constant (F := Ideal) S_ .bf16 0x3F80#16))
      = fun _ => (1 : EReal) := by
    funext i; exact Ideal.ofBits_one_bf16
  rw [hz, ho]
  exact KernelScatter.scatter_idxK_apply x hx 0 1 v j

end Kernel

section Reference
open Cert.ReferenceIdeal Cert.ReferenceIdeal.Read

/-- The reference program's scatter likewise, with 32-bit patterns of zero and one. -/
theorem presR_apply (x : Tok) (hx : ∀ i, (x i).toNat < 50257) (v : Fin 50257) (j : Fin 2048) :
    val_main_v17 (F := Ideal) x (ix2 v j) = pres x v.val j := by
  have hz : val_main_v2 (F := Ideal) = fun _ => (0 : EReal) := by
    funext i; exact Ideal.ofBits_zero_f32
  have ho : val_main_v16 (F := Ideal) = fun _ => (1 : EReal) := by
    funext i; exact Ideal.ofBits_one_f32
  unfold val_main_v17
  rw [hz, ho]
  exact ReferenceScatter.scatter_idxR_apply x hx 0 1 v j

end Reference

end Cert.Hand

end
-- ==== Proof.RefScore.lean ====
/- The reference program's value is the specification.

   Read at column `j` and class `y`, the reference's result is
     (sum over tokens k of P[k, j] * log xy[k, y]) - (0 + sum over k of P[k, j]) * log (0 + sum over k of xy[k, y]) + log yc[y],
   where `P` is the table the scatter builds.  Given that the scatter's cell (k, j) holds the
   presence indicator of token `k` in column `j`, this is the score of the specification, term
   for term: every other operation is a re-indexing (a broadcast or a transpose), an elementwise
   operation, or a sum along one axis, and each is read at an index by its own lemma. -/
import proofs.«108031_j3221225472037_1_alg».proof.Proof.Gen.ReferenceIdeal.Read
import proofs.«108031_j3221225472037_1_alg».proof.Proof.Spec

noncomputable section

namespace Cert.Hand.Ref

open Cert.ReferenceIdeal Cert.ReferenceIdeal.Gen Cert.ReferenceIdeal.Read Idealize.ShloMosaic
  Idealize.ShloMosaic.ValueIdx Cert.Hand

/-- The reference's result at every index is the score, given the scatter's cells. -/
theorem ref_is_score (x : Tok) (xy : (⟨S50257x2, .f32⟩ : BufTy).Contents (Elt Ideal))
    (yc : (⟨S2, .f32⟩ : BufTy).Contents (Elt Ideal))
    (hP : ∀ (v : Fin 50257) (j : Fin 2048), val_main_v17 (F := Ideal) x (ix2 v j) = pres x v.val j) :
    val_main_v33 (F := Ideal) x xy yc = score x xy yc := by
  funext i
  obtain ⟨j, y, rfl⟩ : ∃ (j : Fin 2048) (y : Fin 2), i = ix2 j y := ⟨i 0, i 1, eq_ix2 i⟩
  -- the transposed scatter table, read along the contraction: cell (k, j) of the table
  have e22 : ∀ k : Fin 50257,
      val_main_v22 (F := Ideal) x (lidx_main_v23 (ix2 j y) k) = pres x k.val j := fun k => by
    rw [val_main_v22_apply]
    refine (congrArg (val_main_v17 (F := Ideal) x) (funext fun a => ?_)).trans (hP k j)
    match a with
    | ⟨0, _⟩ => rfl
    | ⟨1, _⟩ => rfl
  -- the logarithm of the counts, read along the contraction
  have e18 : ∀ k : Fin 50257,
      val_main_v18 (F := Ideal) xy (ridx_main_v23 (ix2 j y) k) = Ideal.log (xy (ix2 k y)) := fun k => by
    rw [val_main_v18_apply]
    refine congrArg (fun t => Ideal.log (xy t)) (funext fun a => ?_)
    match a with
    | ⟨0, _⟩ => rfl
    | ⟨1, _⟩ => rfl
  -- the contraction
  have e23 : val_main_v23 (F := Ideal) x xy (ix2 j y)
      = ∑ k : Fin 50257, pres x k.val j * Ideal.log (xy (ix2 k y)) := by
    rw [val_main_v23_apply]
    exact Finset.sum_congr rfl fun k _ => by rw [e22 k, e18 k]
  -- the column sum of the scatter table
  have e21 : val_main_v21 (F := Ideal) x (ix1 j) = 0 + ∑ k : Fin 50257, pres x k.val j := by
    rw [val_main_v21_apply, val_main_cst_5_apply, Ideal.ofBits_def, Ideal.ofBits_zero_f32]
    refine congrArg (0 + ·) (Finset.sum_congr rfl fun k _ => ?_)
    refine (congrArg (val_main_v17 (F := Ideal) x) (funext fun a => ?_)).trans (hP k j)
    match a with
    | ⟨0, _⟩ => rfl
    | ⟨1, _⟩ => rfl
  have e26 : val_main_v26 (F := Ideal) x (ix2 j y) = 0 + ∑ k : Fin 50257, pres x k.val j := by
    rw [val_main_v26_apply, val_main_v24_apply]
    refine (congrArg (val_main_v21 (F := Ideal) x) (funext fun a => ?_)).trans e21
    match a with
    | ⟨0, _⟩ => rfl
  -- the class total of the counts, and its logarithm
  have e19 : val_main_v19 (F := Ideal) xy (ix1 y) = 0 + ∑ k : Fin 50257, xy (ix2 k y) := by
    rw [val_main_v19_apply, val_main_cst_4_apply, Ideal.ofBits_def, Ideal.ofBits_zero_f32]
    refine congrArg (0 + ·) (Finset.sum_congr rfl fun k _ => ?_)
    refine congrArg xy (funext fun a => ?_)
    match a with
    | ⟨0, _⟩ => rfl
    | ⟨1, _⟩ => rfl
  have e20 : val_main_v20 (F := Ideal) xy (ix1 y) = Ideal.log (0 + ∑ k : Fin 50257, xy (ix2 k y)) := by
    rw [val_main_v20_apply, Ideal.hostUnary_log_def, e19]
  have e27 : val_main_v27 (F := Ideal) xy (ix2 j y) = Ideal.log (0 + ∑ k : Fin 50257, xy (ix2 k y)) := by
    rw [val_main_v27_apply, val_main_v25_apply]
    refine (congrArg (val_main_v20 (F := Ideal) xy) (funext fun a => ?_)).trans e20
    match a with
    | ⟨0, _⟩ => rfl
  -- the logarithm of the class count
  have e32 : val_main_v32 (F := Ideal) yc (ix2 j y) = Ideal.log (yc (ix1 y)) := by
    rw [val_main_v32_apply, val_main_v31_apply, val_main_v30_apply]
    refine congrArg (fun t => Ideal.log (yc t)) (funext fun a => ?_)
    match a with
    | ⟨0, _⟩ => rfl
  rw [val_main_v33_apply, val_main_v29_apply, val_main_v28_apply, e23, e26, e27, e32,
    Ideal.addf_def, Ideal.subf_def, Ideal.mulf_def]
  rfl

end Cert.Hand.Ref

end
-- ==== Proof.Glue.lean ====
/- What the three arrays the kernel's grid reads hold when the grid is entered, as terms of the
   argument arrays: the presence array (zeros overwritten with ones at the cells the token table
   names), the table of logarithms with its appended column of ones (51200 rows: the counts padded
   with ones, so that the padded rows' logarithms vanish), and the 2-by-2 block of per-class
   constants (row 0: the logarithm of each class's total count; row 1: the logarithm of each class
   count). -/
import proofs.«108031_j3221225472037_1_alg».proof.Proof.Gen.KernelIdeal.Frame
import Idealize.ShloMosaic.Lib.Pipeline.Value
import Idealize.ShloMosaic.Lib.Tactic

noncomputable section

namespace Cert.Hand.Kern

open Cert.KernelIdeal Cert.KernelIdeal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ)

set_option maxRecDepth 8192 in
set_option maxHeartbeats 2000000 in
/-- The per-class constants. -/
theorem V_extra (c : Dev nD) : (V m c main_v5 : S2x2.Idx → Elt F .f32) =
    concatenate S2x2 0 [⟨S1x2, broadcastInDim S1x2 ![1] bcast_S2_S1x2_1 (Host.log (Host.reduceAdd (m ((c : Thread nD τ).loc main_arg1)) (constant (F := F) S_ .f32 0x00000000#32) reducesTo_S50257x2_S2_d0 h_S_))⟩,
      ⟨S1x2, broadcastInDim S1x2 ![1] bcast_S2_S1x2_1 (Host.log (m ((c : Thread nD τ).loc main_arg2)))⟩] concatenates_S1x2_S1x2_S2x2_d0 := by
  dsimp only [Gen.V]
  simp only [Gen.hostOps0, Gen.hostOps0_1, Gen.hostOps0_2, List.flatten_cons, List.flatten_nil, List.append_nil, List.cons_append, List.nil_append]
  after_results_simp <;> rfl

set_option maxRecDepth 8192 in
set_option maxHeartbeats 2000000 in
/-- The table of logarithms with the column of ones. -/
theorem V_table (c : Dev nD) : (V m c main_v10 : S51200x3.Idx → Elt F .bf16) =
    truncf .bf16 (concatenate S51200x3 1 [⟨S51200x2, Host.log (pad S51200x2 ![0, 0] ![943, 0] ![0, 0] (m ((c : Thread nD τ).loc main_arg1)) (constant (F := F) S_ .f32 0x3F800000#32) pads_S50257x2_S51200x2_09430_000 h_S_)⟩,
      ⟨S51200x1, broadcastInDim S51200x1 ![] bcast_S_S51200x1 (constant (F := F) S_ .f32 0x3F800000#32)⟩] concatenates_S51200x2_S51200x1_S51200x3_d1) bitsLt_bf16_f32 := by
  dsimp only [Gen.V]
  simp only [Gen.hostOps0, Gen.hostOps0_1, Gen.hostOps0_2, List.flatten_cons, List.flatten_nil, List.append_nil, List.cons_append, List.nil_append]
  after_results_simp <;> rfl

/-- The column numbers 0 … 2047 laid out over the token table's shape. -/
abbrev colsK : IVec S400x2048 32 :=
  broadcastInDim S400x2048 ![0, 1] bcast_S1x2048_S400x2048_0_1 (broadcastInDim S1x2048 ![1] bcast_S2048_S1x2048_1 (iotaInDim S2048 32 0))

/-- The cell each entry of the token table names: (token, column), a negative word first wrapped by the array's extent. -/
abbrev idxK (x : IVec S400x2048 32) : IVec S400x2048x2 32 :=
  concatenate S400x2048x2 2 [⟨S400x2048x1, broadcastInDim S400x2048x1 ![0, 1] bcast_S400x2048_S400x2048x1_0_1 (select (cmpi .slt x (broadcastInDim S400x2048 ![] bcast_S_S400x2048 (constantI S_ 32 0#32))) (addi x (broadcastInDim S400x2048 ![] bcast_S_S400x2048 (constantI S_ 32 51200#32))) x)⟩,
    ⟨S400x2048x1, broadcastInDim S400x2048x1 ![0, 1] bcast_S400x2048_S400x2048x1_0_1 (select (cmpi .slt colsK (broadcastInDim S400x2048 ![] bcast_S_S400x2048 (constantI S_ 32 0#32))) (addi colsK (broadcastInDim S400x2048 ![] bcast_S_S400x2048 (constantI S_ 32 2048#32))) colsK)⟩] concatenates_S400x2048x1_S400x2048x1_S400x2048x2_d2

set_option maxRecDepth 8192 in
set_option maxHeartbeats 2000000 in
/-- The presence array. -/
theorem V_presence (c : Dev nD) : (V m c main_v29 : S51200x2048.Idx → Elt F .bf16) =
    Host.scatter scatter_S51200x2048_S400x2048x2_S400x2048_n_01_01_2 (fun _ b => b)
      (broadcastInDim S51200x2048 ![] bcast_S_S51200x2048 (constant (F := F) S_ .bf16 0x0000#16))
      (idxK (m ((c : Thread nD τ).loc main_arg0)))
      (broadcastInDim S400x2048 ![] bcast_S_S400x2048 (constant (F := F) S_ .bf16 0x3F80#16)) := by
  dsimp only [Gen.V]
  simp only [Gen.hostOps0, Gen.hostOps0_1, Gen.hostOps0_2, List.flatten_cons, List.flatten_nil, List.append_nil, List.cons_append, List.nil_append]
  after_results_simp <;> rfl

end Cert.Hand.Kern

end
-- ==== Proof.TableRead.lean ====
/- The two arrays the host builds for the kernel, read at an index.

   The TABLE has 51200 rows and 3 columns.  Its first two columns are the logarithm of the counts
   `xy` padded from 50257 to 51200 rows with ones, so row `v` holds `log xy[v, y]` for a real token
   `v` and `log 1 = 0` for a padding row; its third column is the constant 1.  (The change of format
   at the end is the identity on extended reals.)

   The EXTRA array has 2 rows and 2 columns: row 0 is the logarithm of the class totals
   `0 + sum over v of xy[v, y]`, row 1 the logarithm of the class counts `yc[y]`. -/
import proofs.«108031_j3221225472037_1_alg».proof.Proof.Gen.KernelIdeal
import proofs.«108031_j3221225472037_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

noncomputable section

namespace Cert.Hand.Kern

open Cert.KernelIdeal Cert.KernelIdeal.Gen Idealize.ShloMosaic Idealize.ShloMosaic.ValueIdx Cert.Hand

/-- The counts padded with ones to 51200 rows. -/
abbrev paddedOf (xy : FVec Ideal S50257x2 .f32) : FVec Ideal S51200x2 .f32 :=
  pad S51200x2 ![0, 0] ![943, 0] ![0, 0] xy (constant (F := Ideal) S_ .f32 0x3F800000#32) pads_S50257x2_S51200x2_09430_000 h_S_

/-- The column of ones. -/
abbrev onesCol : FVec Ideal S51200x1 .f32 :=
  broadcastInDim S51200x1 ![] bcast_S_S51200x1 (constant (F := Ideal) S_ .f32 0x3F800000#32)

/-- The table before its change of format: the logarithms beside the column of ones. -/
abbrev joinedOf (xy : FVec Ideal S50257x2 .f32) : FVec Ideal S51200x3 .f32 :=
  concatenate S51200x3 1 [⟨S51200x2, Host.log (paddedOf xy)⟩, ⟨S51200x1, onesCol⟩] concatenates_S51200x2_S51200x1_S51200x3_d1

/-- The table the kernel reads. -/
abbrev tableOf (xy : FVec Ideal S50257x2 .f32) : FVec Ideal S51200x3 .bf16 :=
  truncf .bf16 (concatenate S51200x3 1 [⟨S51200x2, Host.log (pad S51200x2 ![0, 0] ![943, 0] ![0, 0] xy (constant (F := Ideal) S_ .f32 0x3F800000#32) pads_S50257x2_S51200x2_09430_000 h_S_)⟩, ⟨S51200x1, broadcastInDim S51200x1 ![] bcast_S_S51200x1 (constant (F := Ideal) S_ .f32 0x3F800000#32)⟩] concatenates_S51200x2_S51200x1_S51200x3_d1) bitsLt_bf16_f32

/-- The class totals, summed on the host. -/
abbrev totalsOf (xy : FVec Ideal S50257x2 .f32) : FVec Ideal S2 .f32 :=
  Host.reduceAdd xy (constant (F := Ideal) S_ .f32 0x00000000#32) reducesTo_S50257x2_S2_d0 h_S_

/-- The extra array the kernel reads. -/
abbrev extraOf (xy : FVec Ideal S50257x2 .f32) (yc : FVec Ideal S2 .f32) : FVec Ideal S2x2 .f32 :=
  concatenate S2x2 0 [⟨S1x2, broadcastInDim S1x2 ![1] bcast_S2_S1x2_1 (Host.log (Host.reduceAdd xy (constant (F := Ideal) S_ .f32 0x00000000#32) reducesTo_S50257x2_S2_d0 h_S_))⟩, ⟨S1x2, broadcastInDim S1x2 ![1] bcast_S2_S1x2_1 (Host.log yc)⟩] concatenates_S1x2_S1x2_S2x2_d0

/-- The change of format is the identity: the table is the joined array. -/
theorem tableOf_apply (xy : FVec Ideal S50257x2 .f32) (i : S51200x3.Idx) : tableOf xy i = joinedOf xy i := rfl

/-- The logarithm of one is zero. -/
theorem log_one : Ideal.log 1 = 0 := by
  rw [← EReal.coe_one, Ideal.log_coe, if_neg (by norm_num), Real.log_one, EReal.coe_zero]

/-- The padded counts at a real token's row are the counts. -/
theorem padded_inside (xy : FVec Ideal S50257x2 .f32) (v : Fin 50257) (y : Fin 2) :
    paddedOf xy (ix2 (⟨v.val, by omega⟩ : Fin 51200) y) = xy (ix2 v y) := by
  refine pad_apply_of_inside _ _ _ xy _ pads_S50257x2_S51200x2_09430_000 h_S_ _ (ix2 v y) fun a => ?_
  match a with
  | ⟨0, _⟩ => show v.val = 0 + v.val * (0 + 1); omega
  | ⟨1, _⟩ => show y.val = 0 + y.val * (0 + 1); omega

/-- The padded counts at a padding row are one. -/
theorem padded_outside (xy : FVec Ideal S50257x2 .f32) (v : Fin 51200) (hv : 50257 ≤ v.val) (y : Fin 2) :
    paddedOf xy (ix2 v y) = 1 := by
  refine (pad_apply_of_not_inside _ _ _ xy _ pads_S50257x2_S51200x2_09430_000 h_S_ (ix2 v y) (0 : Fin 2) ?_).trans ?_
  · rintro ⟨_, _, h3⟩
    have h4 : (v.val - 0) / (0 + 1) < 50257 := h3
    omega
  · exact Ideal.ofBits_one_f32

/-- The first two columns of the joined array are the logarithm of the padded counts. -/
theorem joined_left (xy : FVec Ideal S50257x2 .f32) (v : Fin 51200) (y : Fin 2) :
    joinedOf xy (ix2 v (⟨y.val, by omega⟩ : Fin 3)) = Ideal.log (paddedOf xy (ix2 v y)) := by
  refine (concatenate_pair_apply_left (1 : Fin 2) (Host.log (paddedOf xy)) onesCol
    concatenates_S51200x2_S51200x1_S51200x3_d1 (ix2 v (⟨y.val, by omega⟩ : Fin 3)) rfl (ix2 v y) fun b => ?_).trans rfl
  match b with
  | ⟨0, _⟩ => rfl
  | ⟨1, _⟩ => rfl

/-- The third column of the joined array is the column of ones. -/
theorem joined_right (xy : FVec Ideal S50257x2 .f32) (v : Fin 51200) :
    joinedOf xy (ix2 v (2 : Fin 3)) = 1 := by
  refine (concatenate_pair_apply_right (1 : Fin 2) (Host.log (paddedOf xy)) onesCol
    concatenates_S51200x2_S51200x1_S51200x3_d1 (ix2 v (2 : Fin 3)) rfl rfl (ix2 v (0 : Fin 1)) (fun b hb => ?_) rfl).trans ?_
  · match b with
    | ⟨0, _⟩ => rfl
    | ⟨1, _⟩ => exact absurd rfl hb
  · exact Ideal.ofBits_one_f32

/-- A real token's row of the table holds the logarithm of its counts. -/
theorem table_log (xy : FVec Ideal S50257x2 .f32) (v : Fin 50257) (y : Fin 2) :
    tableOf xy (ix2 (⟨v.val, by omega⟩ : Fin 51200) (⟨y.val, by omega⟩ : Fin 3)) = Ideal.log (xy (ix2 v y)) := by
  rw [tableOf_apply, joined_left, padded_inside]

/-- A padding row of the table holds zero in its first two columns. -/
theorem table_pad (xy : FVec Ideal S50257x2 .f32) (v : Fin 51200) (hv : 50257 ≤ v.val) (y : Fin 2) :
    tableOf xy (ix2 v (⟨y.val, by omega⟩ : Fin 3)) = 0 := by
  rw [tableOf_apply, joined_left, padded_outside xy v hv y, log_one]

/-- The third column of the table is one. -/
theorem table_one (xy : FVec Ideal S50257x2 .f32) (v : Fin 51200) : tableOf xy (ix2 v (2 : Fin 3)) = 1 := by
  rw [tableOf_apply, joined_right]

/-- A class total is zero plus the sum of the class's counts over the tokens. -/
theorem totals_apply (xy : FVec Ideal S50257x2 .f32) (y : Fin 2) :
    totalsOf xy (ix1 y) = 0 + ∑ k : Fin 50257, xy (ix2 k y) := by
  refine (hostReduceAdd_apply xy _ reducesTo_S50257x2_S2_d0 h_S_ (ix1 y)).trans ?_
  rw [Ideal.hostReduceAdd_single reducesTo_S50257x2_S2_d0 (by decide)]
  refine congrArg₂ (· + ·) Ideal.ofBits_zero_f32 (Finset.sum_congr rfl fun k _ => ?_)
  exact congrArg xy (funext fun a => Fin.ext (by match a with | ⟨0, _⟩ => rfl | ⟨1, _⟩ => rfl))

/-- One row broadcast from a vector of two reads the vector. -/
theorem row_apply (w : FVec Ideal S2 .f32) (y : Fin 2) :
    broadcastInDim S1x2 ![1] bcast_S2_S1x2_1 w (ix2 (0 : Fin 1) y) = w (ix1 y) := by
  refine broadcastInDim_apply _ bcast_S2_S1x2_1 w _ (ix1 y) fun a => ?_
  match a with
  | ⟨0, _⟩ => show y.val = if (2 : Nat) = 1 then 0 else y.val; rw [if_neg (by decide)]

/-- The host's logarithm of an array, at an index, is the logarithm of the element. -/
theorem hostLog_apply {s : Shape} (w : FVec Ideal s .f32) (i : s.Idx) : Host.log w i = Ideal.log (w i) := rfl

/-- Row 0 of the extra array: the logarithm of the class totals. -/
theorem extra_row0 (xy : FVec Ideal S50257x2 .f32) (yc : FVec Ideal S2 .f32) (y : Fin 2) :
    extraOf xy yc (ix2 (0 : Fin 2) y) = Ideal.log (0 + ∑ k : Fin 50257, xy (ix2 k y)) := by
  refine (concatenate_pair_apply_left _ _ _ concatenates_S1x2_S1x2_S2x2_d0 (ix2 (0 : Fin 2) y) rfl
    (ix2 (0 : Fin 1) y) fun b => ?_).trans ?_
  · match b with
    | ⟨0, _⟩ => rfl
    | ⟨1, _⟩ => rfl
  · rw [row_apply, hostLog_apply]
    exact congrArg Ideal.log (totals_apply xy y)

/-- Row 1 of the extra array: the logarithm of the class counts. -/
theorem extra_row1 (xy : FVec Ideal S50257x2 .f32) (yc : FVec Ideal S2 .f32) (y : Fin 2) :
    extraOf xy yc (ix2 (1 : Fin 2) y) = Ideal.log (yc (ix1 y)) := by
  refine (concatenate_pair_apply_right _ _ _ concatenates_S1x2_S1x2_S2x2_d0 (ix2 (1 : Fin 2) y) rfl rfl
    (ix2 (0 : Fin 1) y) (fun b hb => ?_) rfl).trans ?_
  · match b with
    | ⟨0, _⟩ => exact absurd rfl hb
    | ⟨1, _⟩ => rfl
  · rw [row_apply, hostLog_apply]

end Cert.Hand.Kern

end
-- ==== Proof.KForm.lean ====
/- The kernel's result in closed form, over the three arrays its grid reads.

   `P` is the presence array (51200 rows: the vocabulary padded to 25 tiles of 2048), `E` the table
   (51200 rows, columns 0 and 1 the logarithms, column 2 all ones), `X` the 2-by-2 block of
   per-class constants.  For column `j` the accumulator's column `y` ends at zero plus, tile after
   tile, the products of presence and table entries over the tile's 2048 tokens; the score is then
   accumulator column `y` minus accumulator column 2 (the number of present tokens) times `X[0, y]`
   plus `X[1, y]`. -/
import Idealize.ShloMosaic.PureOps.Ideal
import Idealize.ShloMosaic.Lib.ValueIdx

noncomputable section

namespace Cert.Hand

open Idealize.ShloMosaic Idealize.ShloMosaic.ValueIdx

/-- Row `v` of a two-axis array read at column `j`; zero past the last row. -/
def atRow {n c : ℕ} (A : (⟨2, ![n, c]⟩ : Shape).Idx → EReal) (v : ℕ) (j : Fin c) : EReal :=
  if h : v < n then A (ix2 ⟨v, h⟩ j) else 0

theorem atRow_of_lt {n c : ℕ} (A : (⟨2, ![n, c]⟩ : Shape).Idx → EReal) (v : Fin n) (j : Fin c) :
    atRow A v.val j = A (ix2 v j) := by
  unfold atRow; rw [dif_pos v.isLt]

/-- The accumulator for column `j`, its column `y`, after all 25 tiles. -/
def kacc (P : (⟨2, ![51200, 2048]⟩ : Shape).Idx → EReal) (E : (⟨2, ![51200, 3]⟩ : Shape).Idx → EReal)
    (j : Fin 2048) (y : Fin 3) : EReal :=
  0 + ∑ s ∈ Finset.range 25, ∑ k : Fin 2048, atRow P (s * 2048 + k.val) j * atRow E (s * 2048 + k.val) y

/-- The score the kernel writes for column `i 0` and class `i 1`. -/
def kscore (P : (⟨2, ![51200, 2048]⟩ : Shape).Idx → EReal) (E : (⟨2, ![51200, 3]⟩ : Shape).Idx → EReal)
    (X : (⟨2, ![2, 2]⟩ : Shape).Idx → EReal) (i : (⟨2, ![2048, 2]⟩ : Shape).Idx) : EReal :=
  kacc P E (i 0) (⟨(i 1).val, by have h : (i 1).val < 2 := (i 1).isLt; omega⟩ : Fin 3) - kacc P E (i 0) (2 : Fin 3) * X (ix2 (0 : Fin 2) (i 1))
    + X (ix2 (1 : Fin 2) (i 1))

end Cert.Hand

end
-- ==== Proof.Bridge.lean ====
/- The kernel's closed form is the specification.

   The accumulator sums, tile after tile, presence times table entry over all 51200 rows.  The 25
   tiles of 2048 rows are the 51200 rows in order; from row 50257 on the presence indicator is zero
   (no token id reaches 50257), so those rows add nothing and the sum runs over the 50257 real
   tokens.  In the table's first two columns a real token's entry is the logarithm of its count, so
   accumulator column `y` is the score's first sum; its third column is all ones, so accumulator
   column 2 is the number of present tokens.  The two rows of the block of constants are the
   logarithm of the class total and of the class count.  Only `0 + a = a`, `0 * a = 0` and
   `a * 1 = a` on the extended reals are used. -/
import proofs.«108031_j3221225472037_1_alg».proof.Proof.Spec
import proofs.«108031_j3221225472037_1_alg».proof.Proof.KForm

noncomputable section

namespace Cert.Hand

open Idealize.ShloMosaic Idealize.ShloMosaic.ValueIdx

/-- The accumulator for column `j`, its column `y3`, as one sum over the real tokens. -/
theorem kacc_eq (x : Tok) (hx : ∀ i, (x i).toNat < 50257)
    (P : (⟨2, ![51200, 2048]⟩ : Shape).Idx → EReal) (E : (⟨2, ![51200, 3]⟩ : Shape).Idx → EReal)
    (hP : ∀ (v : Fin 51200) (j : Fin 2048), P (ix2 v j) = pres x v.val j) (j : Fin 2048) (y3 : Fin 3) :
    kacc P E j y3 = 0 + ∑ v : Fin 50257, pres x v.val j * atRow E v.val y3 := by
  unfold kacc
  refine congrArg (0 + ·) ?_
  refine (Finset.sum_range fun s => ∑ k : Fin 2048, atRow P (s * 2048 + k.val) j * atRow E (s * 2048 + k.val) y3).trans ?_
  refine (sum_tiles fun v => atRow P v j * atRow E v y3).trans ?_
  refine (sum_pad (fun v => atRow P v j * atRow E v y3) fun v hv => ?_).trans ?_
  · -- a row from 50257 on: inside the array its presence is zero, past the array the read is zero
    have h0 : atRow P v j = 0 := by
      unfold atRow
      by_cases h : v < 51200
      · rw [dif_pos h, hP ⟨v, h⟩ j]
        exact pres_eq_zero_of_le hx hv j
      · rw [dif_neg h]
    show atRow P v j * atRow E v y3 = 0
    rw [h0, zero_mul]
  · refine Finset.sum_congr rfl fun v _ => ?_
    have hv : v.val < 51200 := by have := v.isLt; omega
    have h1 : atRow P v.val j = pres x v.val j := by
      unfold atRow
      rw [dif_pos hv]
      exact hP ⟨v.val, hv⟩ j
    show atRow P v.val j * atRow E v.val y3 = pres x v.val j * atRow E v.val y3
    rw [h1]

/-- The kernel's closed form equals the specification's score. -/
theorem kscore_eq_score (x : Tok) (hx : ∀ i, (x i).toNat < 50257)
    (xy : (⟨2, ![50257, 2]⟩ : Shape).Idx → EReal) (yc : (⟨1, ![2]⟩ : Shape).Idx → EReal)
    (P : (⟨2, ![51200, 2048]⟩ : Shape).Idx → EReal) (E : (⟨2, ![51200, 3]⟩ : Shape).Idx → EReal)
    (X : (⟨2, ![2, 2]⟩ : Shape).Idx → EReal)
    (hP : ∀ (v : Fin 51200) (j : Fin 2048), P (ix2 v j) = pres x v.val j)
    (hElog : ∀ (v : Fin 50257) (y : Fin 2),
      E (ix2 (⟨v.val, by omega⟩ : Fin 51200) (⟨y.val, by omega⟩ : Fin 3)) = Ideal.log (xy (ix2 v y)))
    (hEone : ∀ v : Fin 51200, E (ix2 v (2 : Fin 3)) = 1)
    (hX0 : ∀ y : Fin 2, X (ix2 (0 : Fin 2) y) = Ideal.log (0 + ∑ k : Fin 50257, xy (ix2 k y)))
    (hX1 : ∀ y : Fin 2, X (ix2 (1 : Fin 2) y) = Ideal.log (yc (ix1 y))) :
    kscore P E X = score x xy yc := by
  funext i
  obtain ⟨j, y, rfl⟩ : ∃ (j : Fin 2048) (y : Fin 2), i = ix2 j y := ⟨i 0, i 1, eq_ix2 i⟩
  have hy : y.val < 3 := by have := y.isLt; omega
  -- accumulator column y: the sum of presence times the logarithm of the count
  have h1 : kacc P E j (⟨y.val, hy⟩ : Fin 3) = ∑ k : Fin 50257, pres x k.val j * Ideal.log (xy (ix2 k y)) := by
    rw [kacc_eq x hx P E hP j, zero_add]
    refine Finset.sum_congr rfl fun v _ => ?_
    have hv : v.val < 51200 := by have := v.isLt; omega
    have e : atRow E v.val (⟨y.val, hy⟩ : Fin 3) = Ideal.log (xy (ix2 v y)) := by
      unfold atRow
      rw [dif_pos hv]
      exact hElog v y
    rw [e]
  -- accumulator column 2: the number of present tokens
  have h2 : kacc P E j (2 : Fin 3) = 0 + ∑ k : Fin 50257, pres x k.val j := by
    rw [kacc_eq x hx P E hP j]
    refine congrArg (0 + ·) (Finset.sum_congr rfl fun v _ => ?_)
    have hv : v.val < 51200 := by have := v.isLt; omega
    have e : atRow E v.val (2 : Fin 3) = 1 := by
      unfold atRow
      rw [dif_pos hv]
      exact hEone ⟨v.val, hv⟩
    rw [e, mul_one]
  have key : kscore P E X (ix2 j y)
      = kacc P E j (⟨y.val, hy⟩ : Fin 3) - kacc P E j (2 : Fin 3) * X (ix2 (0 : Fin 2) y) + X (ix2 (1 : Fin 2) y) := rfl
  have key2 : score x xy yc (ix2 j y)
      = (∑ k : Fin 50257, pres x k.val j * Ideal.log (xy (ix2 k y)))
        - (0 + ∑ k : Fin 50257, pres x k.val j) * Ideal.log (0 + ∑ k : Fin 50257, xy (ix2 k y))
        + Ideal.log (yc (ix1 y)) := rfl
  rw [key, key2, h1, h2, hX0, hX1]

end Cert.Hand

end
-- ==== Proof.KernelScore.lean ====
/- The kernel's closed form, at the three arrays its grid reads, is the specification's score.

   When the grid is entered the presence array is the "write a one at every (token, column) cell
   that occurs" scatter, which is the presence indicator; the table is the logarithm of the padded
   counts beside a column of ones; the block of constants holds the logarithm of the class totals
   and of the class counts.  These are exactly the hypotheses under which the closed form equals
   the score. -/
import proofs.«108031_j3221225472037_1_alg».proof.Proof.Glue
import proofs.«108031_j3221225472037_1_alg».proof.Proof.PresenceEq
import proofs.«108031_j3221225472037_1_alg».proof.Proof.TableRead
import proofs.«108031_j3221225472037_1_alg».proof.Proof.Bridge

noncomputable section

namespace Cert.Hand.Kern

open Cert.KernelIdeal Cert.KernelIdeal.Gen Idealize.ShloMosaic Idealize.ShloMosaic.TcCoe Idealize.SL.Sem
  Idealize.ShloMosaic.ValueIdx Cert.Hand

variable (m : (ℓ : Loc nD τ sig) → Buf (Elt Ideal) ℓ) (c : Dev nD)

/-- The closed form over three arrays that ARE the scatter of ones, the table and the block of
    constants built from the argument arrays is the score of the argument arrays. -/
theorem kscore_of (x : Tok) (hx : ∀ i, (x i).toNat < 50257) (xy : FVec Ideal S50257x2 .f32) (yc : FVec Ideal S2 .f32)
    (P : S51200x2048.Idx → EReal) (E : S51200x3.Idx → EReal) (X : S2x2.Idx → EReal)
    (eP : P = Host.scatter scatter_S51200x2048_S400x2048x2_S400x2048_n_01_01_2 (fun _ b => b)
      (broadcastInDim S51200x2048 ![] bcast_S_S51200x2048 (constant (F := Ideal) S_ .bf16 0x0000#16))
      (idxK x)
      (broadcastInDim S400x2048 ![] bcast_S_S400x2048 (constant (F := Ideal) S_ .bf16 0x3F80#16)))
    (eE : E = tableOf xy) (eX : X = extraOf xy yc) :
    kscore P E X = score x xy yc := by
  have hP : ∀ (v : Fin 51200) (j : Fin 2048), P (ix2 v j) = pres x v.val j := fun v j => by
    rw [eP]
    exact presK_apply x hx v j
  have hElog : ∀ (v : Fin 50257) (y : Fin 2),
      E (ix2 (⟨v.val, by omega⟩ : Fin 51200) (⟨y.val, by omega⟩ : Fin 3)) = Ideal.log (xy (ix2 v y)) := fun v y => by
    rw [eE]
    exact table_log xy v y
  have hEone : ∀ v : Fin 51200, E (ix2 v (2 : Fin 3)) = 1 := fun v => by
    rw [eE]
    exact table_one xy v
  have hX0 : ∀ y : Fin 2, X (ix2 (0 : Fin 2) y) = Ideal.log (0 + ∑ k : Fin 50257, xy (ix2 k y)) := fun y => by
    rw [eX]
    exact extra_row0 xy yc y
  have hX1 : ∀ y : Fin 2, X (ix2 (1 : Fin 2) y) = Ideal.log (yc (ix1 y)) := fun y => by
    rw [eX]
    exact extra_row1 xy yc y
  exact kscore_eq_score x hx xy yc P E X hP hElog hEone hX0 hX1

/-- The closed form over the arrays the grid reads is the score of the argument arrays. -/
theorem kscore_V (hx : ∀ i, ((m ((c : Thread nD τ).loc main_arg0) : Tok) i).toNat < 50257) :
    kscore (V m c main_v29 : S51200x2048.Idx → EReal) (V m c main_v10 : S51200x3.Idx → EReal)
        (V m c main_v5 : S2x2.Idx → EReal)
      = score (m ((c : Thread nD τ).loc main_arg0)) (m ((c : Thread nD τ).loc main_arg1))
          (m ((c : Thread nD τ).loc main_arg2)) :=
  kscore_of (m ((c : Thread nD τ).loc main_arg0)) hx (m ((c : Thread nD τ).loc main_arg1))
    (m ((c : Thread nD τ).loc main_arg2)) _ _ _
    (V_presence (F := Ideal) m c) (V_table (F := Ideal) m c) (V_extra (F := Ideal) m c)

end Cert.Hand.Kern

end
-- ==== Proof.Pieces.lean ====
/- What one run of the kernel body leaves behind, case by case, as values.

   The body keeps a running accumulator (1024 rows, 3 columns) in a scratch buffer.  At the first
   vocabulary tile of a column block it first stores zeros there; at every tile it adds the product
   of the transposed presence tile with the table tile to the accumulator; at the last tile it also
   writes the finished scores.  Each lemma below says that the contents a case leaves are the
   corresponding pure term of the point's input blocks and of the accumulator found. -/
import proofs.«108031_j3221225472037_1_alg».proof.Proof.Gen.KernelIdeal.Frame
import Idealize.ShloMosaic.Lib.Pipeline.Value
import Idealize.ShloMosaic.Lib.Tactic

noncomputable section

namespace Cert.Hand.Kern

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- A middle tile: the accumulator found plus this tile's product. -/
theorem scr_B (c : Dev nD) (i : grid0.Coords) (a2 : Memref sig .tc .vmem S2048x1024 .bf16) (h2 : a2.IsWhole) (a3 : Memref sig .tc .vmem S2048x3 .bf16) (h3 : a3.IsWhole) (a4 : Memref sig .tc .vmem S2x2 .f32) (h4 : a4.IsWhole) (a5 : Memref sig .tc .vmem S1024x2 .f32) (h5 : a5.IsWhole) (a6 : Memref sig .tc .vmem S1024x3 .f32) (h6 : a6.IsWhole) (hc0 : ¬cond0_0 i) (hc1 : ¬cond0_1 i)
    (x0 : Vec F S2048x1024 .bf16) (x1 : Vec F S2048x3 .bf16) (x2 : Vec F S2x2 .f32) (xs0 : Vec F S1024x3 .f32) :
    sout0_B_0 c i a2 h2 a3 h3 a4 h4 a5 h5 a6 h6 hc0 hc1 x0 x1 x2 xs0 = k0_pay2 x0 x1 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz]
  simp only [View.readAt_eq_ld, h2.read_unread, h3.read_unread, h6.read_unread, View.ld_unit_zero (S := S2048x1024) hz, View.ld_unit_zero (S := S2048x3) hz, View.ld_unit_zero (S := S1024x3) hz]

/-- The first tile: the zero block plus this tile's product (the zeros are stored, then read back). -/
theorem scr_A (c : Dev nD) (i : grid0.Coords) (a2 : Memref sig .tc .vmem S2048x1024 .bf16) (h2 : a2.IsWhole) (a3 : Memref sig .tc .vmem S2048x3 .bf16) (h3 : a3.IsWhole) (a4 : Memref sig .tc .vmem S2x2 .f32) (h4 : a4.IsWhole) (a5 : Memref sig .tc .vmem S1024x2 .f32) (h5 : a5.IsWhole) (a6 : Memref sig .tc .vmem S1024x3 .f32) (h6 : a6.IsWhole) (hc0 : cond0_0 i) (hc1 : ¬cond0_1 i)
    (x0 : Vec F S2048x1024 .bf16) (x1 : Vec F S2048x3 .bf16) (x2 : Vec F S2x2 .f32) :
    sout0_A_0 c i a2 h2 a3 h3 a4 h4 a5 h5 a6 h6 hc0 hc1 x0 x1 x2 = k0_pay2 x0 x1 k0_pay1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x3) hz, View.readCov_unit_zero (S := S1024x3) _ hz]
  simp only [View.readAt_eq_ld, h2.read_unread, h3.read_unread, View.ld_unit_zero (S := S2048x1024) hz, View.ld_unit_zero (S := S2048x3) hz]

/-- The last tile leaves the same kind of accumulator as a middle one. -/
theorem scr_C (c : Dev nD) (i : grid0.Coords) (a2 : Memref sig .tc .vmem S2048x1024 .bf16) (h2 : a2.IsWhole) (a3 : Memref sig .tc .vmem S2048x3 .bf16) (h3 : a3.IsWhole) (a4 : Memref sig .tc .vmem S2x2 .f32) (h4 : a4.IsWhole) (a5 : Memref sig .tc .vmem S1024x2 .f32) (h5 : a5.IsWhole) (a6 : Memref sig .tc .vmem S1024x3 .f32) (h6 : a6.IsWhole) (hc0 : ¬cond0_0 i) (hc1 : cond0_1 i)
    (x0 : Vec F S2048x1024 .bf16) (x1 : Vec F S2048x3 .bf16) (x2 : Vec F S2x2 .f32) (xs0 : Vec F S1024x3 .f32) :
    sout0_C_0 c i a2 h2 a3 h3 a4 h4 a5 h5 a6 h6 hc0 hc1 x0 x1 x2 xs0 = k0_pay2 x0 x1 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h6.read_unread, View.ld_unit_zero (S := S2048x1024) hz, View.ld_unit_zero (S := S2048x3) hz, View.ld_unit_zero (S := S1024x3) hz]

/-- Row `r` of the 2-by-2 block of per-class constants, as a 1-by-2 row. -/
abbrev rowOf (x2 : Vec F S2x2 .f32) (off : Fin 2 → Nat) (inb : ∀ a, off a + S1x2.size a ≤ S2x2.size a) : Vec F S1x2 .f32 :=
  View.ld x2 (Rect.unit (s := S2x2) off S1x2.size inb)

/-- The last tile also writes the scores: the finishing arithmetic applied to the accumulator it has
    just updated and to the two rows of per-class constants. -/
theorem out_C (c : Dev nD) (i : grid0.Coords) (a2 : Memref sig .tc .vmem S2048x1024 .bf16) (h2 : a2.IsWhole) (a3 : Memref sig .tc .vmem S2048x3 .bf16) (h3 : a3.IsWhole) (a4 : Memref sig .tc .vmem S2x2 .f32) (h4 : a4.IsWhole) (a5 : Memref sig .tc .vmem S1024x2 .f32) (h5 : a5.IsWhole) (a6 : Memref sig .tc .vmem S1024x3 .f32) (h6 : a6.IsWhole) (hc0 : ¬cond0_0 i) (hc1 : cond0_1 i)
    (x0 : Vec F S2048x1024 .bf16) (x1 : Vec F S2048x3 .bf16) (x2 : Vec F S2x2 .f32) (xs0 : Vec F S1024x3 .f32) :
    out0_C_3 c i a2 h2 a3 h3 a4 h4 a5 h5 a6 h6 hc0 hc1 x0 x1 x2 xs0
      = k0_pay3 (k0_pay2 x0 x1 xs0) (rowOf x2 ![0, 0] inb_S2x2_S1x2_0_0) (rowOf x2 ![1, 0] inb_S2x2_S1x2_1_0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S1024x3) _ hz]
  simp only [View.readAt_eq_ld, h2.read_unread, h3.read_unread, h4.read_unread, h6.read_unread, View.ld_unit_zero (S := S2048x1024) hz, View.ld_unit_zero (S := S2048x3) hz, View.ld_unit_zero (S := S1024x3) hz]

end Cert.Hand.Kern

end
-- ==== Proof.Payload.lean ====
/- The kernel body's three pure values, read at an index.

   The first is the zero block the accumulator starts from.  The second adds to the accumulator
   the product of the two loaded blocks contracted over their 2048 rows: at (r, y) it is
   `acc[r, y] + sum over k of x0[k, r] * x1[k, y]`.  The third finishes a block of the result from
   the accumulator `A` and the two rows `r0`, `r1` of the extra array: at (r, y) it is
   `A[r, y] - A[r, 2] * r0[0, y] + r1[0, y]`. -/
import proofs.«108031_j3221225472037_1_alg».proof.Proof.Gen.KernelIdeal.Skeleton
import proofs.«108031_j3221225472037_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.Hand.Kern

open Cert.KernelIdeal Cert.KernelIdeal.Gen Idealize.ShloMosaic Idealize.ShloMosaic.ValueIdx Cert.Hand

/-- The block the accumulator starts from is zero everywhere. -/
theorem pay1_apply (i : S1024x3.Idx) : k0_pay1 (F := Ideal) i = 0 := by
  unfold k0_pay1
  simp only [shapeCast_self]
  exact Ideal.ofBits_zero_f32

/-- The contraction's left operand index: row `k` of the contraction, column `r` of the result's rows. -/
theorem dot_lhs (j : S1024x3.Idx) (q : dot_S2048x1024_S2048x3_S1024x3_0_0_1_1_n_n.contr.Idx) (k : Fin 2048)
    (hk : (q ⟨0, by decide⟩).val = k.val) :
    dot_S2048x1024_S2048x3_S1024x3_0_0_1_1_n_n.lhsIdx j q = ix2 k (j 0) := by
  funext a
  refine Fin.ext ?_
  match a with
  | ⟨0, _⟩ =>
    exact (dot_S2048x1024_S2048x3_S1024x3_0_0_1_1_n_n.lhsIdx_val_of_single rfl j q).trans hk
  | ⟨1, _⟩ =>
    show (dot_S2048x1024_S2048x3_S1024x3_0_0_1_1_n_n.lhsIdx j q 1).val = (j 0).val
    unfold DotDims.lhsIdx
    rw [dif_neg (show ¬(1 : Fin S2048x1024.rank) ∈ dot_S2048x1024_S2048x3_S1024x3_0_0_1_1_n_n.lhsBatch by decide),
      dif_pos (show (1 : Fin S2048x1024.rank) ∈ dot_S2048x1024_S2048x3_S1024x3_0_0_1_1_n_n.lhsNonContracting by decide)]
    rfl

/-- The contraction's right operand index: row `k` of the contraction, the result's column. -/
theorem dot_rhs (j : S1024x3.Idx) (q : dot_S2048x1024_S2048x3_S1024x3_0_0_1_1_n_n.contr.Idx) (k : Fin 2048)
    (hk : (q ⟨0, by decide⟩).val = k.val) :
    dot_S2048x1024_S2048x3_S1024x3_0_0_1_1_n_n.rhsIdx j q = ix2 k (j 1) := by
  funext a
  refine Fin.ext ?_
  match a with
  | ⟨0, _⟩ =>
    exact (dot_S2048x1024_S2048x3_S1024x3_0_0_1_1_n_n.rhsIdx_val_of_single rfl j q).trans hk
  | ⟨1, _⟩ =>
    show (dot_S2048x1024_S2048x3_S1024x3_0_0_1_1_n_n.rhsIdx j q 1).val = (j 1).val
    unfold DotDims.rhsIdx
    rw [dif_neg (show ¬(1 : Fin S2048x3.rank) ∈ dot_S2048x1024_S2048x3_S1024x3_0_0_1_1_n_n.rhsBatch by decide),
      dif_pos (show (1 : Fin S2048x3.rank) ∈ dot_S2048x1024_S2048x3_S1024x3_0_0_1_1_n_n.rhsNonContracting by decide)]
    rfl

/-- The product of the two blocks into the zero block, at an index: the sum over the 2048 contracted rows. -/
theorem matmul_zero_apply (x0 : FVec Ideal S2048x1024 .bf16) (x1 : FVec Ideal S2048x3 .bf16) (r : Fin 1024) (y : Fin 3) :
    matmul (F := Ideal) dot_S2048x1024_S2048x3_S1024x3_0_0_1_1_n_n none x0 x1 (constant (F := Ideal) S1024x3 .f32 0x00000000#32) (ix2 r y)
      = ∑ k : Fin 2048, x0 (ix2 k r) * x1 (ix2 k y) := by
  refine (Ideal.matmul_constant_zero_apply dot_S2048x1024_S2048x3_S1024x3_0_0_1_1_n_n none x0 x1 (ix2 r y)).trans ?_
  rw [← Equiv.sum_comp (ValueIdx.contrEquiv1 dot_S2048x1024_S2048x3_S1024x3_0_0_1_1_n_n 2048 rfl rfl).symm]
  refine Finset.sum_congr rfl fun k _ => ?_
  have hk := ValueIdx.contrEquiv1_symm_val dot_S2048x1024_S2048x3_S1024x3_0_0_1_1_n_n 2048 rfl rfl k
  rw [dot_lhs (ix2 r y) _ k hk, dot_rhs (ix2 r y) _ k hk]
  rfl

/-- The accumulator's update at an index. -/
theorem pay2_apply (x0 : Vec Ideal S2048x1024 .bf16) (x1 : Vec Ideal S2048x3 .bf16) (acc : Vec Ideal S1024x3 .f32)
    (r : Fin 1024) (y : Fin 3) :
    k0_pay2 (F := Ideal) x0 x1 acc (ix2 r y) = acc (ix2 r y) + ∑ k : Fin 2048, x0 (ix2 k r) * x1 (ix2 k y) := by
  unfold k0_pay2
  simp only [shapeCast_self]
  refine (addf_apply _ _ _).trans ?_
  exact congrArg (acc (ix2 r y) + ·) (matmul_zero_apply x0 x1 r y)

/-- The finished block at an index. -/
theorem pay3_apply (A : Vec Ideal S1024x3 .f32) (r0 r1 : Vec Ideal S1x2 .f32) (r : Fin 1024) (y : Fin 2) :
    k0_pay3 (F := Ideal) A r0 r1 (ix2 r y)
      = A (ix2 r (⟨y.val, by omega⟩ : Fin 3)) - A (ix2 r (2 : Fin 3)) * r0 (ix2 (0 : Fin 1) y) + r1 (ix2 (0 : Fin 1) y) := by
  unfold k0_pay3
  simp only [shapeCast_self]
  have e21 : extractStridedSlice S1024x2 ![0, 0] A slices_S1024x3_o0_0_S1024x2 (ix2 r y)
      = A (ix2 r (⟨y.val, by omega⟩ : Fin 3)) :=
    slice2_axis1_apply 0 A slices_S1024x3_o0_0_S1024x2 r y _ (Nat.zero_add _).symm
  have e22 : extractStridedSlice S1024x1 ![0, 2] A slices_S1024x3_o0_2_S1024x1 (ix2 r (0 : Fin 1))
      = A (ix2 r (2 : Fin 3)) :=
    slice2_axis1_apply 2 A slices_S1024x3_o0_2_S1024x1 r (0 : Fin 1) _ rfl
  have e23 : broadcastTo S1024x2 (extractStridedSlice S1024x1 ![0, 2] A slices_S1024x3_o0_2_S1024x1)
      broadcasts_S1024x1_S1024x2 (ix2 r y) = A (ix2 r (2 : Fin 3)) := by
    refine (broadcastTo_apply _ broadcasts_S1024x1_S1024x2 (ix2 r y) (ix2 r (0 : Fin 1)) fun a => ?_).trans e22
    match a with
    | ⟨0, _⟩ => show r.val = if (1024 : Nat) = 1 then 0 else r.val; rw [if_neg (by decide)]
    | ⟨1, _⟩ => show 0 = if (1 : Nat) = 1 then 0 else y.val; rw [if_pos rfl]
  have e24 : broadcastTo S1024x2 r0 broadcasts_S1x2_S1024x2 (ix2 r y) = r0 (ix2 (0 : Fin 1) y) :=
    broadcastTo_1b_ab_apply r0 broadcasts_S1x2_S1024x2 r y
  have e27 : broadcastTo S1024x2 r1 broadcasts_S1x2_S1024x2 (ix2 r y) = r1 (ix2 (0 : Fin 1) y) :=
    broadcastTo_1b_ab_apply r1 broadcasts_S1x2_S1024x2 r y
  rw [addf_apply, subf_apply, mulf_apply, e21, e23, e24, e27]

end Cert.Hand.Kern

end
-- ==== Proof.Blocks.lean ====
/- The blocks the grid's points read, as reads of the whole arrays.

   The grid has 2 x 25 points; point t works on column block t / 25 (1024 columns) and vocabulary
   tile t % 25 (2048 tokens).  The presence block at point t is rows (t % 25) * 2048 + k, columns
   (t / 25) * 1024 + r of the presence array; the table block is rows (t % 25) * 2048 + k of the
   table; the block of per-class constants is the whole 2-by-2 array; the output block is rows
   (t / 25) * 1024 + r of the result. -/
import proofs.«108031_j3221225472037_1_alg».proof.Proof.Gen.KernelIdeal.Frame
import Idealize.ShloMosaic.Lib.ValueIdx
import Idealize.ShloMosaic.Lib.Pipeline.Value
import Idealize.ShloMosaic.Lib.Tactic

noncomputable section

namespace Cert.Hand.Kern

open Cert.KernelIdeal Cert.KernelIdeal.Gen Idealize.ShloMosaic Idealize.ShloMosaic.TcCoe Idealize.SL.Sem
open Idealize.ShloMosaic.Pipeline (Dat)

variable {F : FTy → Type} [FloatOps F]

open Idealize.ShloMosaic.ValueIdx

variable (m : (ℓ : Loc nD τ sig) → Buf (Elt F) ℓ)

/-- The block index of each window at each grid point, decided once over the grid. -/
theorem idx_facts : ∀ t : Fin cfg0.N, win0_0.index t 0 = t.val % 25 ∧ win0_0.index t 1 = t.val / 25
    ∧ win0_1.index t 0 = t.val % 25 ∧ win0_1.index t 1 = 0 ∧ win0_2.index t 0 = 0 ∧ win0_2.index t 1 = 0
    ∧ win0_3.index t 0 = t.val / 25 ∧ win0_3.index t 1 = 0 :=
  (by decide +kernel : ∀ t : Fin grid0.N, _)

/-- An entry of the presence block at point `t` is the presence array's entry at the tile's row and the block's column. -/
theorem iblk0_apply (c : Dev nD) (t : Fin cfg0.N) (j : S2048x1024.Idx) (i : S51200x2048.Idx)
    (h0 : (i 0).val = (t.val % 25) * 2048 + (j 0).val) (h1 : (i 1).val = (t.val / 25) * 1024 + (j 1).val) :
    (iblk m c 0 t : S2048x1024.Idx → Elt F .bf16) j = (V m c main_v29 : S51200x2048.Idx → Elt F .bf16) i := by
  unfold iblk
  rw [View.read_apply]
  show V m c main_v29 _ = V m c main_v29 _
  congr 1
  funext a
  apply Fin.ext
  match a with
  | ⟨0, _⟩ => show win0_0.index t 0 * 2048 + 1 * (j 0).val = (i 0).val; rw [(idx_facts t).1]; omega
  | ⟨1, _⟩ => show win0_0.index t 1 * 1024 + 1 * (j 1).val = (i 1).val; rw [(idx_facts t).2.1]; omega

/-- An entry of the table block at point `t` is the table's entry at the tile's row. -/
theorem iblk1_apply (c : Dev nD) (t : Fin cfg0.N) (j : S2048x3.Idx) (i : S51200x3.Idx)
    (h0 : (i 0).val = (t.val % 25) * 2048 + (j 0).val) (h1 : (i 1).val = (j 1).val) :
    (iblk m c 1 t : S2048x3.Idx → Elt F .bf16) j = (V m c main_v10 : S51200x3.Idx → Elt F .bf16) i := by
  unfold iblk
  rw [View.read_apply]
  show V m c main_v10 _ = V m c main_v10 _
  congr 1
  funext a
  apply Fin.ext
  match a with
  | ⟨0, _⟩ => show win0_1.index t 0 * 2048 + 1 * (j 0).val = (i 0).val; rw [(idx_facts t).2.2.1]; omega
  | ⟨1, _⟩ => show win0_1.index t 1 * 3 + 1 * (j 1).val = (i 1).val; rw [(idx_facts t).2.2.2.1]; omega

/-- The block of per-class constants at any point is the whole array. -/
theorem iblk2_apply (c : Dev nD) (t : Fin cfg0.N) (j : S2x2.Idx) :
    (iblk m c 2 t : S2x2.Idx → Elt F .f32) j = (V m c main_v5 : S2x2.Idx → Elt F .f32) j := by
  unfold iblk
  rw [View.read_apply]
  show V m c main_v5 _ = V m c main_v5 _
  congr 1
  funext a
  apply Fin.ext
  match a with
  | ⟨0, _⟩ => show win0_2.index t 0 * 2 + 1 * (j 0).val = (j 0).val; rw [(idx_facts t).2.2.2.2.1]; omega
  | ⟨1, _⟩ => show win0_2.index t 1 * 2 + 1 * (j 1).val = (j 1).val; rw [(idx_facts t).2.2.2.2.2.1]; omega

end Cert.Hand.Kern

end
-- ==== Proof.Acc.lean ====
/- The accumulator after any grid point, as a sum.

   Within a column block the accumulator is reset at the first vocabulary tile and every tile adds
   its product of the transposed presence block with the table block.  So after the point at
   offset o in its run of 25 tiles the accumulator holds zero plus the sum, over the tiles
   0 … o of the run, of those products, entry by entry.  The order of the additions does not
   matter on the extended reals. -/
import proofs.«108031_j3221225472037_1_alg».proof.Proof.Gen.KernelIdeal.Value
import proofs.«108031_j3221225472037_1_alg».proof.Proof.Pieces
import proofs.«108031_j3221225472037_1_alg».proof.Proof.Payload
import Idealize.ShloMosaic.Lib.ValueIdx
import Idealize.ShloMosaic.Lib.Pipeline.Value
import Idealize.ShloMosaic.Lib.Tactic

noncomputable section

namespace Cert.Hand.Kern

open Cert.KernelIdeal Cert.KernelIdeal.Gen Idealize.ShloMosaic Idealize.ShloMosaic.TcCoe Idealize.SL.Sem
open Idealize.ShloMosaic.Pipeline (Dat)

open Idealize.ShloMosaic.ValueIdx

variable (m : (ℓ : Loc nD τ sig) → Buf (Elt Ideal) ℓ) (c : Dev nD)

/-- At the first tile of a run the scratch is left at the zero block plus the tile's product. -/
theorem scAt_reset (n : ℕ) (hb : n < cfg0.N) (h0 : n % 25 = 0) (acc : Vec Ideal S1024x3 .f32) :
    Cert.KernelIdeal.Value.scAt0_0 m c n hb acc = k0_pay2 (iblk m c 0 (⟨n, hb⟩ : Fin cfg0.N)) (iblk m c 1 (⟨n, hb⟩ : Fin cfg0.N)) (k0_pay1 (F := Ideal)) := by
  have h1 : ¬n % 25 = 24 := by omega
  unfold Cert.KernelIdeal.Value.scAt0_0
  rw [dif_pos h0, dif_neg h1]
  exact scr_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))

/-- At every later tile of a run the scratch is left at what it held plus the tile's product. -/
theorem scAt_step (n : ℕ) (hb : n < cfg0.N) (h0 : ¬n % 25 = 0) (acc : Vec Ideal S1024x3 .f32) :
    Cert.KernelIdeal.Value.scAt0_0 m c n hb acc = k0_pay2 (iblk m c 0 (⟨n, hb⟩ : Fin cfg0.N)) (iblk m c 1 (⟨n, hb⟩ : Fin cfg0.N)) acc := by
  unfold Cert.KernelIdeal.Value.scAt0_0
  rw [dif_neg h0]
  by_cases h1 : n % 25 = 24
  · rw [dif_pos h1]
    exact scr_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
  · rw [dif_neg h1]
    exact scr_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-- The product of a transposed presence block with a table block, at an entry. -/
def tileSum (x0 : Vec Ideal S2048x1024 .bf16) (x1 : Vec Ideal S2048x3 .bf16) (i : S1024x3.Idx) : EReal :=
  ∑ k : Fin 2048, x0 (ix2 k (i 0)) * x1 (ix2 k (i 1))

/-- What the tile at point `n` adds to the accumulator's entry `i`: the sum over the tile's 2048 tokens of
    presence (token, column `i 0`) times table (token, column `i 1`); zero past the grid. -/
def addend (n : ℕ) (i : S1024x3.Idx) : EReal :=
  if hb : n < cfg0.N then tileSum (iblk m c 0 (⟨n, hb⟩ : Fin cfg0.N)) (iblk m c 1 (⟨n, hb⟩ : Fin cfg0.N)) i else 0

theorem pay2_addend (n : ℕ) (hb : n < cfg0.N) (acc : Vec Ideal S1024x3 .f32) (i : S1024x3.Idx) :
    k0_pay2 (F := Ideal) (iblk m c 0 (⟨n, hb⟩ : Fin cfg0.N)) (iblk m c 1 (⟨n, hb⟩ : Fin cfg0.N)) acc i = acc i + addend m c n i := by
  obtain ⟨r, y, rfl⟩ : ∃ (r : Fin 1024) (y : Fin 3), i = ix2 r y := ⟨i 0, i 1, eq_ix2 i⟩
  refine (pay2_apply (iblk m c 0 (⟨n, hb⟩ : Fin cfg0.N)) (iblk m c 1 (⟨n, hb⟩ : Fin cfg0.N)) acc r y).trans ?_
  unfold addend
  rw [dif_pos hb]
  rfl

/-- The scratch after point `t`: zero plus the addends of the tiles of its run up to `t`. -/
theorem scratch_sum (t : Fin cfg0.N) (i : S1024x3.Idx) :
    (outsAt0 m c t.val t.isLt).2 i = 0 + ∑ s ∈ Finset.range (t.val % 25 + 1), addend m c (25 * (t.val / 25) + s) i := by
  rw [Cert.KernelIdeal.Value.soutsAt0_0_eq m c t]
  refine Pipeline.accAt_add_apply _ _ (fun _ => (0 : EReal)) (addend m c) (25 * (t.val / 25)) 24 ?_ ?_ (t.val % 25) (by omega) _ i
  · intro hb i
    rw [scAt_reset m c _ hb (by omega), pay2_addend, pay1_apply]
  · intro n hb acc i hlt hle
    rw [scAt_step m c n hb (by omega), pay2_addend]

end Cert.Hand.Kern

end
-- ==== Proof.Final.lean ====
/- The kernel's result array after the run, in closed form.

   Only the last vocabulary tile of each column block writes the output block back (points 24 and
   49), and the two output blocks tile the result array.  What such a point writes is the finishing
   arithmetic applied to the accumulator after all 25 tiles of its column block; entry by entry this
   is the closed form `kscore` of the three arrays the grid reads, at the array index the block's
   entry sits at. -/
import proofs.«108031_j3221225472037_1_alg».proof.Proof.Gen.KernelIdeal.Value
import proofs.«108031_j3221225472037_1_alg».proof.Proof.Pieces
import proofs.«108031_j3221225472037_1_alg».proof.Proof.Payload
import proofs.«108031_j3221225472037_1_alg».proof.Proof.Blocks
import proofs.«108031_j3221225472037_1_alg».proof.Proof.Acc
import proofs.«108031_j3221225472037_1_alg».proof.Proof.KForm
import Idealize.ShloMosaic.Lib.ValueIdx
import Idealize.ShloMosaic.Lib.Pipeline.Value
import Idealize.ShloMosaic.Lib.Tactic

noncomputable section

namespace Cert.Hand.Kern

open Cert.KernelIdeal Cert.KernelIdeal.Gen Idealize.ShloMosaic Idealize.ShloMosaic.TcCoe Idealize.SL.Sem
open Idealize.ShloMosaic.Pipeline (Dat)

open Idealize.ShloMosaic.ValueIdx Cert.Hand

variable (m : (ℓ : Loc nD τ sig) → Buf (Elt Ideal) ℓ) (ρ : Dev nD → PrngReg) (c : Dev nD)

/-- The presence array, the table and the per-class constants as the grid finds them. -/
abbrev Parr : S51200x2048.Idx → EReal := V m c main_v29
abbrev Earr : S51200x3.Idx → EReal := V m c main_v10
abbrev Xarr : S2x2.Idx → EReal := V m c main_v5

/-- The result array in closed form. -/
abbrev result : Buf (Elt Ideal) ((c : Thread nD τ).loc main_v30) := kscore (Parr m c) (Earr m c) (Xarr m c)

/-- The addend of tile `s` of column block `q`, in terms of the whole arrays. -/
theorem addend_eq (q s : ℕ) (hq : q < 2) (hs : s < 25) (r : Fin 1024) (y3 : Fin 3) (j : Fin 2048) (hj : j.val = q * 1024 + r.val) :
    addend m c (25 * q + s) (ix2 r y3) = ∑ k : Fin 2048, atRow (Parr m c) (s * 2048 + k.val) j * atRow (Earr m c) (s * 2048 + k.val) y3 := by
  have hN : cfg0.N = 50 := N_0
  have hb : 25 * q + s < cfg0.N := by omega
  unfold addend
  rw [dif_pos hb]
  unfold tileSum
  refine Finset.sum_congr rfl fun k _ => ?_
  have hk : s * 2048 + k.val < 51200 := by have := k.isLt; omega
  have e0 := atRow_of_lt (Parr m c) (⟨s * 2048 + k.val, hk⟩ : Fin 51200) j
  have e1 := atRow_of_lt (Earr m c) (⟨s * 2048 + k.val, hk⟩ : Fin 51200) y3
  rw [e0, e1]
  refine congrArg₂ (· * ·) ?_ ?_
  · exact iblk0_apply m c ⟨25 * q + s, hb⟩ (ix2 k r) (ix2 (⟨s * 2048 + k.val, hk⟩ : Fin 51200) j)
      (by show s * 2048 + k.val = (25 * q + s) % 25 * 2048 + k.val; omega)
      (by show j.val = (25 * q + s) / 25 * 1024 + r.val; omega)
  · exact iblk1_apply m c ⟨25 * q + s, hb⟩ (ix2 k y3) (ix2 (⟨s * 2048 + k.val, hk⟩ : Fin 51200) y3)
      (by show s * 2048 + k.val = (25 * q + s) % 25 * 2048 + k.val; omega) rfl

/-- The accumulator after the last tile of a column block, in terms of the whole arrays. -/
theorem scratch_last (t : Fin cfg0.N) (h24 : t.val % 25 = 24) (r : Fin 1024) (y3 : Fin 3) (j : Fin 2048)
    (hj : j.val = t.val / 25 * 1024 + r.val) :
    (outsAt0 m c t.val t.isLt).2 (ix2 r y3) = kacc (Parr m c) (Earr m c) j y3 := by
  have hN : cfg0.N = 50 := N_0
  have ht := t.isLt
  rw [scratch_sum m c t (ix2 r y3), h24]
  unfold kacc
  refine congrArg (0 + ·) (Finset.sum_congr rfl fun s hs => ?_)
  exact addend_eq m c (t.val / 25) s (by omega) (Finset.mem_range.1 hs) r y3 j hj

/-- A row of the block of per-class constants, read at a class. -/
theorem rowOf_apply (t : Fin cfg0.N) (off : Fin 2 → Nat) (inb : ∀ a, off a + S1x2.size a ≤ S2x2.size a) (y : Fin 2)
    (q : Fin 2) (hq : off 0 = q.val) (h1 : off 1 = 0) :
    rowOf (iblk m c 2 t : Vec Ideal S2x2 .f32) off inb (ix2 (0 : Fin 1) y) = Xarr m c (ix2 q y) := by
  show (iblk m c 2 t : Vec Ideal S2x2 .f32) ((Rect.unit (s := S2x2) off S1x2.size inb).emb (ix2 (0 : Fin 1) y)) = _
  rw [iblk2_apply m c t]
  refine congrArg (Xarr m c) (funext fun a => Fin.ext ?_)
  match a with
  | ⟨0, _⟩ => show off 0 + 1 * 0 = q.val; omega
  | ⟨1, _⟩ => show off 1 + 1 * y.val = y.val; omega

/-- One entry of what the last tile of a column block writes: the closed form at the array index the entry sits at. -/
theorem flushed_entry (t : Fin cfg0.N) (h24 : t.val % 25 = 24) (j : S1024x2.Idx) (i : S2048x2.Idx)
    (hi0 : (i 0).val = t.val / 25 * 1024 + (j 0).val) (hi1 : (i 1).val = (j 1).val) :
    k0_pay3 (F := Ideal) (outsAt0 m c t.val t.isLt).2 (rowOf (iblk m c 2 t : Vec Ideal S2x2 .f32) ![0, 0] inb_S2x2_S1x2_0_0)
        (rowOf (iblk m c 2 t : Vec Ideal S2x2 .f32) ![1, 0] inb_S2x2_S1x2_1_0) j = result m c i := by
  obtain ⟨r, y, rfl⟩ : ∃ (r : Fin 1024) (y : Fin 2), j = ix2 r y := ⟨j 0, j 1, eq_ix2 j⟩
  obtain ⟨jj, y', rfl⟩ : ∃ (jj : Fin 2048) (y' : Fin 2), i = ix2 jj y' := ⟨i 0, i 1, eq_ix2 i⟩
  obtain rfl : y' = y := Fin.ext hi1
  refine (pay3_apply (outsAt0 m c t.val t.isLt).2 (rowOf (iblk m c 2 t : Vec Ideal S2x2 .f32) ![0, 0] inb_S2x2_S1x2_0_0)
    (rowOf (iblk m c 2 t : Vec Ideal S2x2 .f32) ![1, 0] inb_S2x2_S1x2_1_0) r y').trans ?_
  rw [scratch_last m c t h24 r _ jj hi0, scratch_last m c t h24 r _ jj hi0,
    rowOf_apply m c t ![0, 0] inb_S2x2_S1x2_0_0 y' 0 rfl rfl, rowOf_apply m c t ![1, 0] inb_S2x2_S1x2_1_0 y' 1 rfl rfl]
  rfl

/-- What the last tile of a column block writes back: the finishing arithmetic applied to the accumulator after that tile. -/
theorem flushed_val (t : Fin cfg0.N) (h0 : ¬t.val % 25 = 0) (h24 : t.val % 25 = 24) :
    (dats m 0 c).flushed 3 t = (cfg0.win 3).cut (grid0.coords t)
      (k0_pay3 (F := Ideal) (outsAt0 m c t.val t.isLt).2 (rowOf (iblk m c 2 t : Vec Ideal S2x2 .f32) ![0, 0] inb_S2x2_S1x2_0_0)
        (rowOf (iblk m c 2 t : Vec Ideal S2x2 .f32) ![1, 0] inb_S2x2_S1x2_1_0)) := by
  have hprev : t.val - 1 < cfg0.N := Nat.lt_of_le_of_lt (Nat.sub_le _ _) t.isLt
  have hs : (outsAt0 m c t.val t.isLt).2 = k0_pay2 (F := Ideal) (iblk m c 0 t) (iblk m c 1 t) (outsAt0 m c (t.val - 1) hprev).2 := by
    rw [outsAt0_C m c t h0 h24]
    dsimp only
    exact scr_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h24) (iblk m c 0 t) (iblk m c 1 t) (iblk m c 2 t) (outsAt0 m c (t.val - 1) hprev).2
  refine (Cert.KernelIdeal.Value.flushed3_C m c t h0 h24).trans (congrArg ((cfg0.win 3).cut (grid0.coords t)) ?_)
  refine (out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h24) (iblk m c 0 t) (iblk m c 1 t) (iblk m c 2 t) (outsAt0 m c (t.val - 1) hprev).2).trans ?_
  exact congrArg (fun A => k0_pay3 (F := Ideal) A (rowOf (iblk m c 2 t : Vec Ideal S2x2 .f32) ![0, 0] inb_S2x2_S1x2_0_0)
    (rowOf (iblk m c 2 t : Vec Ideal S2x2 .f32) ![1, 0] inb_S2x2_S1x2_1_0)) hs.symm

/-- A block whose entries are an array's entries at the places the output block's entries sit is that array read through the block. -/
theorem cut_read (t : Fin cfg0.N) (B : Vec Ideal S1024x2 .f32) (G : Buf (Elt Ideal) ((c : Thread nD τ).loc main_v30))
    (h : ∀ j : S1024x2.Idx, B j = G (((cfg0.win 3).blk t).view.emb j)) :
    (cfg0.win 3).cut (grid0.coords t) B = ((cfg0.win 3).blk t).view.read (Elt Ideal) G :=
  funext fun j => h j

/-- Where an entry of point `t`'s output block sits in the result array. -/
theorem emb_coords (t : Fin cfg0.N) (j : S1024x2.Idx) :
    ((((cfg0.win 3).blk t).view.emb j) 0).val = t.val / 25 * 1024 + (j 0).val
      ∧ ((((cfg0.win 3).blk t).view.emb j) 1).val = (j 1).val := by
  constructor
  · show win0_3.index t 0 * 1024 + 1 * (j 0).val = _; rw [(idx_facts t).2.2.2.2.2.2.1]; omega
  · show win0_3.index t 1 * 2 + 1 * (j 1).val = _; rw [(idx_facts t).2.2.2.2.2.2.2]; omega

/-- What the last tile of a column block writes back is its block of the closed form. -/
theorem flushed_eq (t : Fin cfg0.N) (hf : (cfg0.win 3).flush t = true) :
    (dats m 0 c).flushed 3 t = ((cfg0.win 3).blk t).view.read (Elt Ideal) (result m c) := by
  have h24 : t.val % 25 = 24 := (flush0_3 t).mp hf
  have h0 : ¬t.val % 25 = 0 := by omega
  refine (flushed_val m c t h0 h24).trans (cut_read c t _ (result m c) fun j => ?_)
  exact flushed_entry m c t h24 j (((cfg0.win 3).blk t).view.emb j) (emb_coords t j).1 (emb_coords t j).2

/-- An index of the result array is in point `t`'s output block iff each coordinate is in the block's range. -/
theorem mem_blk (t : Fin cfg0.N) (i : S2048x2.Idx) :
    i ∈ ((cfg0.win 3).blk t).view.set ↔ ∀ a : Fin 2, win0_3.index t a * S1024x2.size a ≤ (i a).val ∧ (i a).val < win0_3.index t a * S1024x2.size a + S1024x2.size a := by
  show i ∈ ((View.whole main_v30).slice (win0_3.rect t)).set ↔ _
  rw [View.set_slice_whole, Rect.mem_set_unit]
  exact Iff.rfl

/-- The result array after the run: the closed form.  Row `i 0` lies in the output block of the last tile of
    column block `(i 0) / 1024`. -/
theorem final : (dats m 0 c).arrAt 3 cfg0.N = result m c :=
  (dats m 0 c).arrAt_eq_of_cover 3 (result m c) (flushed_eq m c) fun i => by
    have hN : cfg0.N = 50 := N_0
    have hi0 : (i 0).val < 2048 := (i 0).isLt
    have hi1 : (i 1).val < 2 := (i 1).isLt
    have ht : 25 * ((i 0).val / 1024) + 24 < cfg0.N := by omega
    refine ⟨⟨25 * ((i 0).val / 1024) + 24, ht⟩, (flush0_3 _).mpr (by show (25 * ((i 0).val / 1024) + 24) % 25 = 24; omega), ?_⟩
    rw [mem_blk]
    intro a
    match a with
    | ⟨0, _⟩ =>
      show win0_3.index ⟨25 * ((i 0).val / 1024) + 24, ht⟩ 0 * 1024 ≤ (i 0).val ∧ (i 0).val < win0_3.index ⟨25 * ((i 0).val / 1024) + 24, ht⟩ 0 * 1024 + 1024
      rw [(idx_facts ⟨25 * ((i 0).val / 1024) + 24, ht⟩).2.2.2.2.2.2.1]
      show (25 * ((i 0).val / 1024) + 24) / 25 * 1024 ≤ (i 0).val ∧ (i 0).val < (25 * ((i 0).val / 1024) + 24) / 25 * 1024 + 1024
      omega
    | ⟨1, _⟩ =>
      show win0_3.index ⟨25 * ((i 0).val / 1024) + 24, ht⟩ 1 * 2 ≤ (i 1).val ∧ (i 1).val < win0_3.index ⟨25 * ((i 0).val / 1024) + 24, ht⟩ 1 * 2 + 2
      rw [(idx_facts ⟨25 * ((i 0).val / 1024) + 24, ht⟩).2.2.2.2.2.2.2]
      omega

/-- The kernel's run, read: the result array ends at the closed form, the arguments unchanged. -/
theorem run : θ_run defs (onTc (τ := τ) (main (F := Ideal))) ⟨m, fun _ => 0, ρ⟩ fun r => ∀ c : Dev nD,
      r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Hand.Kern

end
-- ==== Proof.lean ====
/- The kernel scores each of 2048 columns of a token table against 2 classes: for column j and class y,
   the sum over the tokens v present in column j of log xycounts[v, y], minus the number of present
   tokens times log (sum over v of xycounts[v, y]), plus log ycounts[y].

   The reference builds a presence array over the 50257 tokens by overwriting zeros with ones at the
   cells the table names, contracts it with the logarithms, and counts the present tokens by a column
   sum.  The kernel builds the same presence array over 51200 rows (25 tiles of 2048; the counts are
   padded with ones, whose logarithm is zero), appends a column of ones to the table of logarithms so
   that one product yields both the sum of logarithms and the count, accumulates the product tile by
   tile, and finishes at the last tile.

   The two agree entry by entry over the extended reals when every token id lies in [0, 50257): then
   no padded row is ever present, the padded rows contribute zero products, and the tile-by-tile sum
   over 51200 rows is the reference's sum over 50257 rows.  Only commutativity and associativity of
   the sum are used, so the finiteness of the counts is not needed; the range of the token ids is.
   The idealization rewrote nothing, so its soundness conjunct is trivial; the three programs' frames
   are the generated ones (the reference's is its generated run with the result dropped). -/
import proofs.«108031_j3221225472037_1_alg».proof.Defs
import proofs.«108031_j3221225472037_1_alg».proof.Proof.Gen.Kernel
import proofs.«108031_j3221225472037_1_alg».proof.Proof.Gen.Kernel.Skeleton
import proofs.«108031_j3221225472037_1_alg».proof.Proof.Gen.Kernel.Launch
import proofs.«108031_j3221225472037_1_alg».proof.Proof.Gen.Kernel.Points
import proofs.«108031_j3221225472037_1_alg».proof.Proof.Gen.Kernel.Frame
import proofs.«108031_j3221225472037_1_alg».proof.Proof.Gen.KernelIdeal
import proofs.«108031_j3221225472037_1_alg».proof.Proof.Gen.KernelIdeal.Skeleton
import proofs.«108031_j3221225472037_1_alg».proof.Proof.Gen.KernelIdeal.Launch
import proofs.«108031_j3221225472037_1_alg».proof.Proof.Gen.KernelIdeal.Points
import proofs.«108031_j3221225472037_1_alg».proof.Proof.Gen.KernelIdeal.Frame
import proofs.«108031_j3221225472037_1_alg».proof.Proof.Gen.ReferenceIdeal
import proofs.«108031_j3221225472037_1_alg».proof.Proof.Gen.Pre_finite_inputs
import proofs.«108031_j3221225472037_1_alg».proof.Proof.Gen.KernelIdeal.Value
import proofs.«108031_j3221225472037_1_alg».proof.Proof.Gen.ReferenceIdeal.Run
import proofs.«108031_j3221225472037_1_alg».proof.Proof.Gen.ReferenceIdeal.Read
import proofs.«108031_j3221225472037_1_alg».proof.Proof.PreTok
import proofs.«108031_j3221225472037_1_alg».proof.Proof.PresenceEq
import proofs.«108031_j3221225472037_1_alg».proof.Proof.RefScore
import proofs.«108031_j3221225472037_1_alg».proof.Proof.KernelScore
import proofs.«108031_j3221225472037_1_alg».proof.Proof.Final
import Idealize.ShloMosaic.Adequacy
import Idealize.ShloMosaic.Init

noncomputable section

namespace Cert.Proof

open Idealize.ShloMosaic Idealize.SL.Sem

/-- Under the precondition both idealized programs end with the score array, and leave their arguments as they were. -/
theorem algebraic : Cert.algebraic_KernelIdeal_ReferenceIdeal := by
  intro m ρ m' ρ' hpre hagree
  refine ⟨fun c => Cert.Hand.Kern.result m c, Cert.Hand.Kern.run m ρ, ?_⟩
  refine (θ_run Cert.ReferenceIdeal.defs _ _).mono (fun _ h c => ⟨?_, (h c).2⟩) (Cert.ReferenceIdeal.Value.run (F := Ideal) m' ρ')
  have hx := Cert.Hand.tok_lt_of_pre _ _ _ (hpre c)
  rw [(h c).1, Cert.ReferenceIdeal.Read.val_main_v33_eq, (hagree c).1, (hagree c).2.1, (hagree c).2.2,
    Cert.Hand.Ref.ref_is_score _ _ _ (fun v j => Cert.Hand.presR_apply _ hx v j)]
  exact (Cert.Hand.Kern.kscore_V m c hx).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
